-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S1024x4096 : Shape := ⟨2, ![1024, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S16384x4096 .f32) (main_arg1 : FVec F S1024x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S16384x4096 : Shape := ⟨2, ![16384, 4096]⟩
abbrev S1024x4096 : Shape := ⟨2, ![1024, 4096]⟩
abbrev S16384x1024 : Shape := ⟨2, ![16384, 1024]⟩
abbrev S16384x1 : Shape := ⟨2, ![16384, 1]⟩
abbrev S512x128 : Shape := ⟨2, ![512, 128]⟩
abbrev S256x4096 : Shape := ⟨2, ![256, 4096]⟩
abbrev S256x1024 : Shape := ⟨2, ![256, 1024]⟩
abbrev S256x1 : Shape := ⟨2, ![256, 1]⟩
abbrev S8x128 : Shape := ⟨2, ![8, 128]⟩
abbrev S256 : Shape := ⟨1, ![256]⟩
abbrev S1 : Shape := ⟨1, ![1]⟩
abbrev S1x1 : Shape := ⟨2, ![1, 1]⟩
abbrev S_ : Shape := ⟨0, ![]⟩
abbrev S1024x1024 : Shape := ⟨2, ![1024, 1024]⟩
abbrev S16384 : Shape := ⟨1, ![16384]⟩

abbrev nBuf : Space → Nat
  | .hbm => 31
  | .vmem => 17
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S1024x4096, .bf16⟩
  | .hbm, ⟨3, _⟩ => ⟨S16384x1024, .f32⟩
  | .hbm, ⟨4, _⟩ => ⟨S16384x1, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S1x1, .f32⟩
  | .hbm, ⟨27, _⟩ => ⟨S16384x1024, .f32⟩
  | .hbm, ⟨28, _⟩ => ⟨S16384, .f32⟩
  | .hbm, ⟨29, _⟩ => ⟨S_, .f32⟩
  | .hbm, ⟨30, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S256x1024, .f32⟩
  | .local _ .vmem, ⟨4, _⟩ => ⟨S256x1024, .f32⟩
  | .local _ .vmem, ⟨5, _⟩ => ⟨S256x1, .f32⟩
  | .local _ .vmem, ⟨6, _⟩ => ⟨S256x1, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S1024x1024, .f32⟩
  | .local _ .vmem, ⟨12, _⟩ => ⟨S1024x1024, .f32⟩
  | .local _ .vmem, ⟨13, _⟩ => ⟨S1x1, .f32⟩
  | .local _ .vmem, ⟨14, _⟩ => ⟨S1x1, .f32⟩
  | .local _ .vmem, ⟨15, _⟩ => ⟨S1024x1024, .f32⟩
  | .local _ .vmem, ⟨16, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1024_S256x1024_0_0 : ∀ a, (![0, 0] : Fin 2 → Nat) a + S256x1024.size a ≤ S256x1024.size a
  h_S256x1024 : 0 < S256x1024.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reduces_S256x1024_S256 : S256x1024.Reduces [1] S256
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S512x128_S_d0_1 : S512x128.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1_S1024x1024 : S1x1.Broadcasts S1024x1024
  shapeCasts_S16384x1_S16384 : S16384x1.ShapeCasts S16384
  shapeCasts_S_S_ : S_.ShapeCasts S_
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S16384x1.size a
  hwx0_3 : ∀ i : grid0.Coords, EltTy.bits .f32 = 32 ∨ (Rect.block (s := S16384x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S512x128.size a
  hwx0_4 : ∀ i : grid0.Coords, EltTy.bits .f32 = 32 ∨ (Rect.block (s := S512x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S512x128.size a
  hwx0_5 : ∀ i : grid0.Coords, EltTy.bits .f32 = 32 ∨ (Rect.block (s := S512x128) S8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x1024.size a
  hwx1_3 : ∀ i : grid1.Coords, EltTy.bits .f32 = 32 ∨ (Rect.block (s := S16384x1024) S1024x1024.size (cc1_transform_3 i) (hinb1_3 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S1024x4096 : Shape := ⟨2, ![1024, 4096]⟩
abbrev S4096x1024 : Shape := ⟨2, ![4096, 1024]⟩
abbrev S16384x1024 : Shape := ⟨2, ![16384, 1024]⟩
abbrev S_ : Shape := ⟨0, ![]⟩
abbrev S16384 : Shape := ⟨1, ![16384]⟩

abbrev nBuf : Space → Nat
  | .hbm => 43
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S4096x1024, .f32⟩
  | .hbm, ⟨3, _⟩ => ⟨S16384x1024, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_cst_5 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]

class Facts₀ : Prop where
  transposes_S1024x4096_S4096x1024_1_0 : S1024x4096.Transposes [1, 0] S4096x1024
  reducesTo_S16384x4096_S16384_d1 : S16384x4096.ReducesTo [1] S16384
  h_S_ : 0 < S_.numel
  reducesTo_S16384x1024_S_d0_1 : S16384x1024.ReducesTo [0, 1] S_
  bcast_S_S16384x1024 : S_.BroadcastsInDim S16384x1024 (![] : Fin 0 → Fin S16384x1024.rank)
  dot_S16384x4096_S4096x1024_S16384x1024_1_0_0_1_n_n_wf : DotDims.WF S16384x4096 S4096x1024 S16384x1024 [1] [0] [0] [1] [] []

variable [Facts₀]

def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.KernelRun.lean ====
/-
  The idealized kernel's run with its four results read off the final state.

  The program is two kernel regions among stretches of host operations.  The library's theorem for such a
  run gives, for every weakly fair execution, a final state in which every unscoped buffer holds the last of
  the contents valuations the generated frame folds through the program (launch memory, then each host
  stretch applied, then each region's arrays replaced by what its write-backs leave).  The frame claim reads
  only the two argument arrays off that state; here the same run is read at the four result buffers as well,
  so the value of each result is the fold's last valuation at that buffer.
-/
import proofs.«127435_j61151744360781_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, each of the four result buffers
    holding the final valuation's contents at that buffer and the two arguments as launched. -/
theorem run_final : θ_run defs (onTc (τ := τ) (main (F := F))) ⟨m, fun _ => 0, ρ⟩ (fun r => ∀ c : Dev nD,
      r.2.mem ((c.tc : Thread nD τ).loc main_v17) = W9 m ρ c (Proc.devRef .tc main_v17)
      ∧ r.2.mem ((c.tc : Thread nD τ).loc main_v18) = W9 m ρ c (Proc.devRef .tc main_v18)
      ∧ r.2.mem ((c.tc : Thread nD τ).loc main_v19) = W9 m ρ c (Proc.devRef .tc main_v19)
      ∧ r.2.mem ((c.tc : Thread nD τ).loc main_v20) = W9 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v17 (by decide)),
       h c _ (mem_uc main_v18 (by decide)),
       h c _ (mem_uc main_v19 (by decide)),
       h c _ (mem_uc main_v20 (by decide)),
       (h c _ (mem_uc main_arg0 (by decide))).trans (W9_main_arg0 m ρ c),
       (h c _ (mem_uc main_arg1 (by decide))).trans (W9_main_arg1 m ρ c)⟩)

end Cert.KernelIdeal.ValueRun

end
-- ==== Proof.Region0.lean ====
/-
  Region 0's output arrays after its run, as whole-array functions of the arrays the region finds on entry.

  The region's grid has 64 points; point t works on rows 256t … 256t+255 of the keys array and on the whole
  (narrowed) sketch array, and writes back rows 256t … 256t+255 of the projected array and of the norms column,
  and rows 8t … 8t+7 of the two arrays of per-block minima and maxima.  Each output array therefore ends holding,
  at row r, what the point r / 256 (r / 8 for the partials) stored at row r mod 256 (r mod 8) of its block: the body's
  stored value computed from that point's row block of the keys.
-/
import proofs.«127435_j61151744360781_2_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Rows 256t … 256t+255 of a 16384-row array of keys. -/
def rowBlock (A : S16384x4096.Idx → Elt F .f32) (t : Fin 64) : Vec F S256x4096 .f32 := fun y =>
  A (ix2 (⟨256 * t.val + (y 0).val, by have := idx2_lt0 y; have := t.isLt; omega⟩ : Fin 16384) (⟨(y 1).val, idx2_lt1 y⟩ : Fin 4096))

/-- Where each window's block sits at point t: the row-tiled windows at block row t, the sketch window at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The keys window's block at point t is rows 256t … 256t+255 of the keys as the region finds them. -/
theorem iblk_keys (c : Dev nD) (t : Fin cfg0.N) :
    (iblk0 V c 0 t : Vec F S256x4096 .f32) = rowBlock (V c main_arg0) ⟨t.val, by have := t.isLt; have hN : cfg0.N = 64 := N_0; omega⟩ := by
  obtain ⟨e0, e1, -⟩ := idx_facts t
  funext y
  unfold iblk0 rowBlock
  rw [View.read_apply]
  show V c main_arg0 _ = V c main_arg0 _
  congr 1
  funext a
  apply Fin.ext
  match a with
  | ⟨0, _⟩ => show win0_0.index t (0 : Fin 2) * 256 + 1 * (y 0).val = 256 * t.val + (y 0).val; rw [e0]; omega
  | ⟨1, _⟩ => show win0_0.index t (1 : Fin 2) * 4096 + 1 * (y 1).val = (y 1).val; rw [e1]; omega

/-- The sketch window's block at every point is the whole (narrowed) sketch array as the region finds it. -/
theorem iblk_sketch (c : Dev nD) (t : Fin cfg0.N) :
    (iblk0 V c 1 t : Vec F S1024x4096 .bf16) = V c main_v0 := by
  obtain ⟨-, -, e0, e1, -⟩ := idx_facts t
  funext y
  unfold iblk0
  rw [View.read_apply]
  show V c main_v0 _ = V c main_v0 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 4096 + 1 * (y 1).val = (y 1).val; rw [e1]; omega

/-! ## Output window 2: the projected array, 256 rows per point -/

/-- The block of a row of the array, and the position inside the block. -/
def blk2 (i : S16384x1024.Idx) : Fin 64 := ⟨(i 0).val / 256, by have := idx2_lt0 i; omega⟩
def pos2 (i : S16384x1024.Idx) : S256x1024.Idx :=
  ix2 (⟨(i 0).val % 256, Nat.mod_lt _ (by decide)⟩ : Fin 256) (⟨(i 1).val, idx2_lt1 i⟩ : Fin 1024)

/-- The array the window ends holding: at each index, what the index's block's point stored there. -/
def projArr (A : S16384x4096.Idx → Elt F .f32) (S : S1024x4096.Idx → Elt F .bf16) : S16384x1024.Idx → Elt F .f32 := fun i =>
  k0_pay1 (F := F) (rowBlock A (blk2 i)) S (pos2 i)

/-- At an index in block t, position j, that array is the stored value of block t at j. -/
theorem projArr_at (A : S16384x4096.Idx → Elt F .f32) (S : S1024x4096.Idx → Elt F .bf16) (t : Fin 64) (j : S256x1024.Idx)
    (i : S16384x1024.Idx) (h0 : (i 0).val = 256 * t.val + (j 0).val) (h1 : (i 1).val = (j 1).val) :
    projArr A S i = k0_pay1 (F := F) (rowBlock A t) S j := by
  have ht : blk2 i = t := Fin.ext (by show (i 0).val / 256 = t.val; have := idx2_lt0 j; omega)
  have hj : pos2 i = j := by
    funext a; apply Fin.ext
    match a with
    | ⟨0, _⟩ => show (i 0).val % 256 = (j 0).val; have := idx2_lt0 j; omega
    | ⟨1, _⟩ => exact h1
  unfold projArr
  rw [ht, hj]

/-- What point t writes back through window 2 is block t of that array. -/
theorem flushed2 (c : Dev nD) (t : Fin cfg0.N) :
    (dat0 V c).flushed 2 t = ((cfg0.win 2).blk t).view.read (Elt F) (projArr (V c main_arg0) (V c main_v0)) := by
  have hN : cfg0.N = 64 := N_0
  have ef := idx_facts t
  show (cfg0.win 2).cut (grid0.coords t) ((dat0 V c).after 2 t) = _
  rw [after0_2]
  unfold out0_2
  rw [View.canon_unit_zero hz]
  simp only [View.ld_unit_zero (S := S256x4096) hz, View.ld_unit_zero (S := S1024x4096) hz]
  rw [iblk_keys, iblk_sketch]
  funext j
  rw [View.read_apply]
  refine (projArr_at (V c main_arg0) (V c main_v0) ⟨t.val, by have := t.isLt; omega⟩ j _ ?_ ?_).symm
  · show win0_2.index t (0 : Fin 2) * 256 + 1 * (j 0).val = 256 * t.val + (j 0).val
    have e := ef.2.2.2.2.1
    rw [e]; omega
  · show win0_2.index t (1 : Fin 2) * 1024 + 1 * (j 1).val = (j 1).val
    have e := ef.2.2.2.2.2.1
    rw [e]; omega

/-- An index is in point t's block iff each coordinate is within the block's range on its axis. -/
theorem mem_blk2 (t : Fin cfg0.N) (i : S16384x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v1_0).slice (win0_2.rect t)).set ↔ _
  rw [View.set_slice_whole, Rect.mem_set_unit]
  exact Iff.rfl

/-- Every index of the array is in the block of the point its row belongs to. -/
theorem cover2 (i : S16384x1024.Idx) : ∃ t : Fin cfg0.N, (cfg0.win 2).flush t = true ∧ i ∈ ((cfg0.win 2).blk t).view.set := by
  have hN : cfg0.N = 64 := N_0
  have h0 := idx2_lt0 i
  have h1 := idx2_lt1 i
  let t : Fin cfg0.N := ⟨(i 0).val / 256, by omega⟩
  have ef := idx_facts t
  refine ⟨t, flush0_2 t, ?_⟩
  rw [mem_blk2]
  intro a
  match a with
  | ⟨0, _⟩ =>
    show win0_2.index t (0 : Fin 2) * 256 ≤ (i 0).val ∧ (i 0).val < win0_2.index t (0 : Fin 2) * 256 + 256
    have e : win0_2.index t (0 : Fin 2) = (i 0).val / 256 := ef.2.2.2.2.1
    rw [e]; omega
  | ⟨1, _⟩ =>
    show win0_2.index t (1 : Fin 2) * 1024 ≤ (i 1).val ∧ (i 1).val < win0_2.index t (1 : Fin 2) * 1024 + 1024
    have e : win0_2.index t (1 : Fin 2) = 0 := ef.2.2.2.2.2.1
    rw [e]; omega

/-- The array after the region's run. -/
theorem final2 (c : Dev nD) : (dat0 V c).arrAt 2 cfg0.N = projArr (V c main_arg0) (V c main_v0) :=
  (dat0 V c).arrAt_eq_of_cover 2 (projArr (V c main_arg0) (V c main_v0)) (fun t _ => flushed2 V c t) cover2

/-! ## Output window 3: the norms column, 256 rows per point -/

/-- The block of a row of the array, and the position inside the block. -/
def blk3 (i : S16384x1.Idx) : Fin 64 := ⟨(i 0).val / 256, by have := idx2_lt0 i; omega⟩
def pos3 (i : S16384x1.Idx) : S256x1.Idx :=
  ix2 (⟨(i 0).val % 256, Nat.mod_lt _ (by decide)⟩ : Fin 256) (⟨(i 1).val, idx2_lt1 i⟩ : Fin 1)

/-- The array the window ends holding: at each index, what the index's block's point stored there. -/
def normArr (A : S16384x4096.Idx → Elt F .f32) (S : S1024x4096.Idx → Elt F .bf16) : S16384x1.Idx → Elt F .f32 := fun i =>
  k0_pay2 (F := F) (rowBlock A (blk3 i)) (pos3 i)

/-- At an index in block t, position j, that array is the stored value of block t at j. -/
theorem normArr_at (A : S16384x4096.Idx → Elt F .f32) (S : S1024x4096.Idx → Elt F .bf16) (t : Fin 64) (j : S256x1.Idx)
    (i : S16384x1.Idx) (h0 : (i 0).val = 256 * t.val + (j 0).val) (h1 : (i 1).val = (j 1).val) :
    normArr A S i = k0_pay2 (F := F) (rowBlock A t) j := by
  have ht : blk3 i = t := Fin.ext (by show (i 0).val / 256 = t.val; have := idx2_lt0 j; omega)
  have hj : pos3 i = j := by
    funext a; apply Fin.ext
    match a with
    | ⟨0, _⟩ => show (i 0).val % 256 = (j 0).val; have := idx2_lt0 j; omega
    | ⟨1, _⟩ => exact h1
  unfold normArr
  rw [ht, hj]

/-- What point t writes back through window 3 is block t of that array. -/
theorem flushed3 (c : Dev nD) (t : Fin cfg0.N) :
    (dat0 V c).flushed 3 t = ((cfg0.win 3).blk t).view.read (Elt F) (normArr (V c main_arg0) (V c main_v0)) := by
  have hN : cfg0.N = 64 := N_0
  have ef := idx_facts t
  show (cfg0.win 3).cut (grid0.coords t) ((dat0 V c).after 3 t) = _
  rw [after0_3]
  unfold out0_3
  rw [View.canon_unit_zero hz]
  simp only [View.ld_unit_zero (S := S256x4096) hz, View.ld_unit_zero (S := S1024x4096) hz]
  rw [iblk_keys]
  funext j
  rw [View.read_apply]
  refine (normArr_at (V c main_arg0) (V c main_v0) ⟨t.val, by have := t.isLt; omega⟩ j _ ?_ ?_).symm
  · show win0_3.index t (0 : Fin 2) * 256 + 1 * (j 0).val = 256 * t.val + (j 0).val
    have e := ef.2.2.2.2.2.2.1
    rw [e]; omega
  · show win0_3.index t (1 : Fin 2) * 1 + 1 * (j 1).val = (j 1).val
    have e := ef.2.2.2.2.2.2.2.1
    rw [e]; omega

/-- An index is in point t's block iff each coordinate is within the block's range on its axis. -/
theorem mem_blk3 (t : Fin cfg0.N) (i : S16384x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v1_1).slice (win0_3.rect t)).set ↔ _
  rw [View.set_slice_whole, Rect.mem_set_unit]
  exact Iff.rfl

/-- Every index of the array is in the block of the point its row belongs to. -/
theorem cover3 (i : S16384x1.Idx) : ∃ t : Fin cfg0.N, (cfg0.win 3).flush t = true ∧ i ∈ ((cfg0.win 3).blk t).view.set := by
  have hN : cfg0.N = 64 := N_0
  have h0 := idx2_lt0 i
  have h1 := idx2_lt1 i
  let t : Fin cfg0.N := ⟨(i 0).val / 256, by omega⟩
  have ef := idx_facts t
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    have e : win0_3.index t (0 : Fin 2) = (i 0).val / 256 := ef.2.2.2.2.2.2.1
    rw [e]; omega
  | ⟨1, _⟩ =>
    show win0_3.index t (1 : Fin 2) * 1 ≤ (i 1).val ∧ (i 1).val < win0_3.index t (1 : Fin 2) * 1 + 1
    have e : win0_3.index t (1 : Fin 2) = 0 := ef.2.2.2.2.2.2.2.1
    rw [e]; omega

/-- The array after the region's run. -/
theorem final3 (c : Dev nD) : (dat0 V c).arrAt 3 cfg0.N = normArr (V c main_arg0) (V c main_v0) :=
  (dat0 V c).arrAt_eq_of_cover 3 (normArr (V c main_arg0) (V c main_v0)) (fun t _ => flushed3 V c t) cover3

/-! ## Output window 4: the per-point minima, an 8 x 128 tile per point -/

/-- The block of a row of the array, and the position inside the block. -/
def blk4 (i : S512x128.Idx) : Fin 64 := ⟨(i 0).val / 8, by have := idx2_lt0 i; omega⟩
def pos4 (i : S512x128.Idx) : S8x128.Idx :=
  ix2 (⟨(i 0).val % 8, Nat.mod_lt _ (by decide)⟩ : Fin 8) (⟨(i 1).val, idx2_lt1 i⟩ : Fin 128)

/-- The array the window ends holding: at each index, what the index's block's point stored there. -/
def minArr (A : S16384x4096.Idx → Elt F .f32) (S : S1024x4096.Idx → Elt F .bf16) : S512x128.Idx → Elt F .f32 := fun i =>
  k0_pay3 (F := F) (rowBlock A (blk4 i)) S (pos4 i)

/-- At an index in block t, position j, that array is the stored value of block t at j. -/
theorem minArr_at (A : S16384x4096.Idx → Elt F .f32) (S : S1024x4096.Idx → Elt F .bf16) (t : Fin 64) (j : S8x128.Idx)
    (i : S512x128.Idx) (h0 : (i 0).val = 8 * t.val + (j 0).val) (h1 : (i 1).val = (j 1).val) :
    minArr A S i = k0_pay3 (F := F) (rowBlock A t) S j := by
  have ht : blk4 i = t := Fin.ext (by show (i 0).val / 8 = t.val; have := idx2_lt0 j; omega)
  have hj : pos4 i = j := by
    funext a; apply Fin.ext
    match a with
    | ⟨0, _⟩ => show (i 0).val % 8 = (j 0).val; have := idx2_lt0 j; omega
    | ⟨1, _⟩ => exact h1
  unfold minArr
  rw [ht, hj]

/-- What point t writes back through window 4 is block t of that array. -/
theorem flushed4 (c : Dev nD) (t : Fin cfg0.N) :
    (dat0 V c).flushed 4 t = ((cfg0.win 4).blk t).view.read (Elt F) (minArr (V c main_arg0) (V c main_v0)) := by
  have hN : cfg0.N = 64 := N_0
  have ef := idx_facts t
  show (cfg0.win 4).cut (grid0.coords t) ((dat0 V c).after 4 t) = _
  rw [after0_4]
  unfold out0_4
  rw [View.canon_unit_zero hz]
  simp only [View.ld_unit_zero (S := S256x4096) hz, View.ld_unit_zero (S := S1024x4096) hz]
  rw [iblk_keys, iblk_sketch]
  funext j
  rw [View.read_apply]
  refine (minArr_at (V c main_arg0) (V c main_v0) ⟨t.val, by have := t.isLt; omega⟩ j _ ?_ ?_).symm
  · show win0_4.index t (0 : Fin 2) * 8 + 1 * (j 0).val = 8 * t.val + (j 0).val
    have e := ef.2.2.2.2.2.2.2.2.1
    rw [e]; omega
  · show win0_4.index t (1 : Fin 2) * 128 + 1 * (j 1).val = (j 1).val
    have e := ef.2.2.2.2.2.2.2.2.2.1
    rw [e]; omega

/-- An index is in point t's block iff each coordinate is within the block's range on its axis. -/
theorem mem_blk4 (t : Fin cfg0.N) (i : S512x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v1_2).slice (win0_4.rect t)).set ↔ _
  rw [View.set_slice_whole, Rect.mem_set_unit]
  exact Iff.rfl

/-- Every index of the array is in the block of the point its row belongs to. -/
theorem cover4 (i : S512x128.Idx) : ∃ t : Fin cfg0.N, (cfg0.win 4).flush t = true ∧ i ∈ ((cfg0.win 4).blk t).view.set := by
  have hN : cfg0.N = 64 := N_0
  have h0 := idx2_lt0 i
  have h1 := idx2_lt1 i
  let t : Fin cfg0.N := ⟨(i 0).val / 8, by omega⟩
  have ef := idx_facts t
  refine ⟨t, flush0_4 t, ?_⟩
  rw [mem_blk4]
  intro a
  match a with
  | ⟨0, _⟩ =>
    show win0_4.index t (0 : Fin 2) * 8 ≤ (i 0).val ∧ (i 0).val < win0_4.index t (0 : Fin 2) * 8 + 8
    have e : win0_4.index t (0 : Fin 2) = (i 0).val / 8 := ef.2.2.2.2.2.2.2.2.1
    rw [e]; omega
  | ⟨1, _⟩ =>
    show win0_4.index t (1 : Fin 2) * 128 ≤ (i 1).val ∧ (i 1).val < win0_4.index t (1 : Fin 2) * 128 + 128
    have e : win0_4.index t (1 : Fin 2) = 0 := ef.2.2.2.2.2.2.2.2.2.1
    rw [e]; omega

/-- The array after the region's run. -/
theorem final4 (c : Dev nD) : (dat0 V c).arrAt 4 cfg0.N = minArr (V c main_arg0) (V c main_v0) :=
  (dat0 V c).arrAt_eq_of_cover 4 (minArr (V c main_arg0) (V c main_v0)) (fun t _ => flushed4 V c t) cover4

/-! ## Output window 5: the per-point maxima, an 8 x 128 tile per point -/

/-- The block of a row of the array, and the position inside the block. -/
def blk5 (i : S512x128.Idx) : Fin 64 := ⟨(i 0).val / 8, by have := idx2_lt0 i; omega⟩
def pos5 (i : S512x128.Idx) : S8x128.Idx :=
  ix2 (⟨(i 0).val % 8, Nat.mod_lt _ (by decide)⟩ : Fin 8) (⟨(i 1).val, idx2_lt1 i⟩ : Fin 128)

/-- The array the window ends holding: at each index, what the index's block's point stored there. -/
def maxArr (A : S16384x4096.Idx → Elt F .f32) (S : S1024x4096.Idx → Elt F .bf16) : S512x128.Idx → Elt F .f32 := fun i =>
  k0_pay4 (F := F) (rowBlock A (blk5 i)) S (pos5 i)

/-- At an index in block t, position j, that array is the stored value of block t at j. -/
theorem maxArr_at (A : S16384x4096.Idx → Elt F .f32) (S : S1024x4096.Idx → Elt F .bf16) (t : Fin 64) (j : S8x128.Idx)
    (i : S512x128.Idx) (h0 : (i 0).val = 8 * t.val + (j 0).val) (h1 : (i 1).val = (j 1).val) :
    maxArr A S i = k0_pay4 (F := F) (rowBlock A t) S j := by
  have ht : blk5 i = t := Fin.ext (by show (i 0).val / 8 = t.val; have := idx2_lt0 j; omega)
  have hj : pos5 i = j := by
    funext a; apply Fin.ext
    match a with
    | ⟨0, _⟩ => show (i 0).val % 8 = (j 0).val; have := idx2_lt0 j; omega
    | ⟨1, _⟩ => exact h1
  unfold maxArr
  rw [ht, hj]

/-- What point t writes back through window 5 is block t of that array. -/
theorem flushed5 (c : Dev nD) (t : Fin cfg0.N) :
    (dat0 V c).flushed 5 t = ((cfg0.win 5).blk t).view.read (Elt F) (maxArr (V c main_arg0) (V c main_v0)) := by
  have hN : cfg0.N = 64 := N_0
  have ef := idx_facts t
  show (cfg0.win 5).cut (grid0.coords t) ((dat0 V c).after 5 t) = _
  rw [after0_5]
  unfold out0_5
  rw [View.canon_unit_zero hz]
  simp only [View.ld_unit_zero (S := S256x4096) hz, View.ld_unit_zero (S := S1024x4096) hz]
  rw [iblk_keys, iblk_sketch]
  funext j
  rw [View.read_apply]
  refine (maxArr_at (V c main_arg0) (V c main_v0) ⟨t.val, by have := t.isLt; omega⟩ j _ ?_ ?_).symm
  · show win0_5.index t (0 : Fin 2) * 8 + 1 * (j 0).val = 8 * t.val + (j 0).val
    have e := ef.2.2.2.2.2.2.2.2.2.2.1
    rw [e]; omega
  · show win0_5.index t (1 : Fin 2) * 128 + 1 * (j 1).val = (j 1).val
    have e := ef.2.2.2.2.2.2.2.2.2.2.2
    rw [e]; omega

/-- An index is in point t's block iff each coordinate is within the block's range on its axis. -/
theorem mem_blk5 (t : Fin cfg0.N) (i : S512x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v1_3).slice (win0_5.rect t)).set ↔ _
  rw [View.set_slice_whole, Rect.mem_set_unit]
  exact Iff.rfl

/-- Every index of the array is in the block of the point its row belongs to. -/
theorem cover5 (i : S512x128.Idx) : ∃ t : Fin cfg0.N, (cfg0.win 5).flush t = true ∧ i ∈ ((cfg0.win 5).blk t).view.set := by
  have hN : cfg0.N = 64 := N_0
  have h0 := idx2_lt0 i
  have h1 := idx2_lt1 i
  let t : Fin cfg0.N := ⟨(i 0).val / 8, by omega⟩
  have ef := idx_facts t
  refine ⟨t, flush0_5 t, ?_⟩
  rw [mem_blk5]
  intro a
  match a with
  | ⟨0, _⟩ =>
    show win0_5.index t (0 : Fin 2) * 8 ≤ (i 0).val ∧ (i 0).val < win0_5.index t (0 : Fin 2) * 8 + 8
    have e : win0_5.index t (0 : Fin 2) = (i 0).val / 8 := ef.2.2.2.2.2.2.2.2.2.2.1
    rw [e]; omega
  | ⟨1, _⟩ =>
    show win0_5.index t (1 : Fin 2) * 128 ≤ (i 1).val ∧ (i 1).val < win0_5.index t (1 : Fin 2) * 128 + 128
    have e : win0_5.index t (1 : Fin 2) = 0 := ef.2.2.2.2.2.2.2.2.2.2.2
    rw [e]; omega

/-- The array after the region's run. -/
theorem final5 (c : Dev nD) : (dat0 V c).arrAt 5 cfg0.N = maxArr (V c main_arg0) (V c main_v0) :=
  (dat0 V c).arrAt_eq_of_cover 5 (maxArr (V c main_arg0) (V c main_v0)) (fun t _ => flushed5 V c t) cover5

end Cert.KernelIdeal.Region0

end
-- ==== Proof.Region1.lean ====
/-
  Region 1's output array after its run, as a whole-array function of the arrays the region finds on entry.

  The region's grid has 16 points; point t reads rows 1024t … 1024t+1023 of the projected array and the two 1 x 1
  arrays holding the scale and the zero point, and writes back rows 1024t … 1024t+1023 of the quantized array.  So
  the quantized array ends holding, at row r, what point r / 1024 stored at row r mod 1024 of its block.
-/
import proofs.«127435_j61151744360781_2_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Rows 1024t … 1024t+1023 of a projected array. -/
def rowBlockP (P : S16384x1024.Idx → Elt F .f32) (t : Fin 16) : Vec F S1024x1024 .f32 := fun y =>
  P (ix2 (⟨1024 * t.val + (y 0).val, by have := idx2_lt0 y; have := t.isLt; omega⟩ : Fin 16384) (⟨(y 1).val, idx2_lt1 y⟩ : Fin 1024))

/-- Where each window's block sits at point t. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The projected window's block at point t is rows 1024t … 1024t+1023 of the projected array as the region finds it. -/
theorem iblk_proj (c : Dev nD) (t : Fin cfg1.N) :
    (iblk1 V c 0 t : Vec F S1024x1024 .f32) = rowBlockP (V c main_v1_0) ⟨t.val, by have := t.isLt; have hN : cfg1.N = 16 := N_1; omega⟩ := by
  obtain ⟨e0, e1, -⟩ := idx_facts t
  funext y
  unfold iblk1 rowBlockP
  rw [View.read_apply]
  show V c main_v1_0 _ = V c main_v1_0 _
  congr 1
  funext a
  apply Fin.ext
  match a with
  | ⟨0, _⟩ => show win1_0.index t (0 : Fin 2) * 1024 + 1 * (y 0).val = 1024 * t.val + (y 0).val; rw [e0]; omega
  | ⟨1, _⟩ => show win1_0.index t (1 : Fin 2) * 1024 + 1 * (y 1).val = (y 1).val; rw [e1]; omega

/-- The scale window's block at every point is the whole 1 x 1 scale array. -/
theorem iblk_scale (c : Dev nD) (t : Fin cfg1.N) : (iblk1 V c 1 t : Vec F S1x1 .f32) = V c main_v15 := by
  obtain ⟨-, -, e0, e1, -⟩ := idx_facts t
  funext y
  unfold iblk1
  rw [View.read_apply]
  show V c main_v15 _ = V c main_v15 y
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 1 + 1 * (y 1).val = (y 1).val; rw [e1]; omega

/-- The zero-point window's block at every point is the whole 1 x 1 zero-point array. -/
theorem iblk_zero (c : Dev nD) (t : Fin cfg1.N) : (iblk1 V c 2 t : Vec F S1x1 .f32) = V c main_v16 := by
  obtain ⟨-, -, -, -, e0, e1, -⟩ := idx_facts t
  funext y
  unfold iblk1
  rw [View.read_apply]
  show V c main_v16 _ = V c main_v16 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 1 + 1 * (y 1).val = (y 1).val; rw [e1]; omega

/-! ## The output window: the quantized array, 1024 rows per point -/

/-- The block of a row of the array, and the position inside the block. -/
def blk (i : S16384x1024.Idx) : Fin 16 := ⟨(i 0).val / 1024, by have := idx2_lt0 i; omega⟩
def pos (i : S16384x1024.Idx) : S1024x1024.Idx :=
  ix2 (⟨(i 0).val % 1024, Nat.mod_lt _ (by decide)⟩ : Fin 1024) (⟨(i 1).val, idx2_lt1 i⟩ : Fin 1024)

/-- The array the window ends holding: at each index, what the index's block's point stored there. -/
def quantArr (P : S16384x1024.Idx → Elt F .f32) (s z : S1x1.Idx → Elt F .f32) : S16384x1024.Idx → Elt F .f32 := fun i =>
  k1_pay1 (F := F) s z (rowBlockP P (blk i)) (pos i)

/-- At an index in block t, position j, that array is the stored value of block t at j. -/
theorem quantArr_at (P : S16384x1024.Idx → Elt F .f32) (s z : S1x1.Idx → Elt F .f32) (t : Fin 16) (j : S1024x1024.Idx)
    (i : S16384x1024.Idx) (h0 : (i 0).val = 1024 * t.val + (j 0).val) (h1 : (i 1).val = (j 1).val) :
    quantArr P s z i = k1_pay1 (F := F) s z (rowBlockP P t) j := by
  have ht : blk i = t := Fin.ext (by show (i 0).val / 1024 = t.val; have := idx2_lt0 j; omega)
  have hj : pos i = j := by
    funext a; apply Fin.ext
    match a with
    | ⟨0, _⟩ => show (i 0).val % 1024 = (j 0).val; have := idx2_lt0 j; omega
    | ⟨1, _⟩ => exact h1
  unfold quantArr
  rw [ht, hj]

/-- What point t writes back is block t of that array. -/
theorem flushed3 (c : Dev nD) (t : Fin cfg1.N) :
    (dat1 V c).flushed 3 t = ((cfg1.win 3).blk t).view.read (Elt F) (quantArr (V c main_v1_0) (V c main_v15) (V c main_v16)) := by
  have hN : cfg1.N = 16 := N_1
  have ef := idx_facts t
  show (cfg1.win 3).cut (grid1.coords t) ((dat1 V c).after 3 t) = _
  rw [after1_3]
  unfold out1_3
  rw [View.canon_unit_zero hz]
  simp only [View.ld_unit_zero (S := S1024x1024) hz, View.ld_unit_zero (S := S1x1) hz]
  rw [iblk_proj, iblk_scale, iblk_zero]
  funext j
  rw [View.read_apply]
  refine (quantArr_at (V c main_v1_0) (V c main_v15) (V c main_v16) ⟨t.val, by have := t.isLt; omega⟩ j _ ?_ ?_).symm
  · show win1_3.index t (0 : Fin 2) * 1024 + 1 * (j 0).val = 1024 * t.val + (j 0).val
    have e := ef.2.2.2.2.2.2.1
    rw [e]; omega
  · show win1_3.index t (1 : Fin 2) * 1024 + 1 * (j 1).val = (j 1).val
    have e := ef.2.2.2.2.2.2.2
    rw [e]; omega

/-- An index is in point t's block iff each coordinate is within the block's range on its axis. -/
theorem mem_blk3 (t : Fin cfg1.N) (i : S16384x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v17).slice (win1_3.rect t)).set ↔ _
  rw [View.set_slice_whole, Rect.mem_set_unit]
  exact Iff.rfl

/-- Every index of the array is in the block of the point its row belongs to. -/
theorem cover3 (i : S16384x1024.Idx) : ∃ t : Fin cfg1.N, (cfg1.win 3).flush t = true ∧ i ∈ ((cfg1.win 3).blk t).view.set := by
  have hN : cfg1.N = 16 := N_1
  have h0 := idx2_lt0 i
  have h1 := idx2_lt1 i
  let t : Fin cfg1.N := ⟨(i 0).val / 1024, by omega⟩
  have ef := idx_facts t
  refine ⟨t, flush1_3 t, ?_⟩
  rw [mem_blk3]
  intro a
  match a with
  | ⟨0, _⟩ =>
    show win1_3.index t (0 : Fin 2) * 1024 ≤ (i 0).val ∧ (i 0).val < win1_3.index t (0 : Fin 2) * 1024 + 1024
    have e : win1_3.index t (0 : Fin 2) = (i 0).val / 1024 := ef.2.2.2.2.2.2.1
    rw [e]; omega
  | ⟨1, _⟩ =>
    show win1_3.index t (1 : Fin 2) * 1024 ≤ (i 1).val ∧ (i 1).val < win1_3.index t (1 : Fin 2) * 1024 + 1024
    have e : win1_3.index t (1 : Fin 2) = 0 := ef.2.2.2.2.2.2.2
    rw [e]; omega

/-- The array after the region's run. -/
theorem final3 (c : Dev nD) : (dat1 V c).arrAt 3 cfg1.N = quantArr (V c main_v1_0) (V c main_v15) (V c main_v16) :=
  (dat1 V c).arrAt_eq_of_cover 3 (quantArr (V c main_v1_0) (V c main_v15) (V c main_v16)) (fun t _ => flushed3 V c t) cover3

end Cert.KernelIdeal.Region1

end
-- ==== Proof.Spec.lean ====
/-
  The quantities both programs compute, stated once.

  From the global minimum `mn` and maximum `mx` of the projected array (each a rank-0 array) both programs
  derive, by the same scalar operations in the same order,
    xmax  = max |mn| |mx|, replaced by 1 when it is 0,
    scale = (xmax - (-xmax)) / 15,
    zero  = roundeven (-(-xmax) / scale),
  and then quantize each projected entry `v` to  scale * (min 15 (max 0 (roundeven (v / scale) + zero)) - zero).
  The scalar chain is written over any float instance, as operations on rank-0 arrays, so that it is literally
  the term either program's host operations build; the per-entry formula is written on the extended reals.
-/
import Idealize.ShloMosaic.PureOps.Ideal
import Idealize.ShloMosaic.Lib.ValueIdx

noncomputable section

namespace Cert.Spec

open Idealize.ShloMosaic

/-- The shape of a scalar array. -/
abbrev S0 : Shape := ⟨0, ![]⟩

section Scalars
variable {F : FTy → Type} [FloatOps F]

/-- `max |mn| |mx|`. -/
def absMax (mn mx : FVec F S0 .f32) : FVec F S0 .f32 := maximumf (Host.absf mn) (Host.absf mx)

/-- `max |mn| |mx|`, or 1 where that is 0. -/
def xmaxOf (mn mx : FVec F S0 .f32) : FVec F S0 .f32 :=
  select (cmpf .oeq (absMax mn mx) (constant S0 .f32 0x00000000#32)) (constant S0 .f32 0x3F800000#32) (absMax mn mx)

/-- `(xmax - (-xmax)) / 15`. -/
def scaleOf (mn mx : FVec F S0 .f32) : FVec F S0 .f32 :=
  Host.divf (subf (xmaxOf mn mx) (Host.negf (xmaxOf mn mx))) (constant S0 .f32 0x41700000#32)

/-- `roundeven (-(-xmax) / scale)`. -/
def zeroOf (mn mx : FVec F S0 .f32) : FVec F S0 .f32 :=
  Host.roundeven (Host.divf (Host.negf (Host.negf (xmaxOf mn mx))) (scaleOf mn mx))

end Scalars

/-- One projected entry `v` quantized with scale `s` and zero point `z`, on the extended reals:
    `s * (min 15 (max 0 (roundeven (v / s) + z)) - z)`. -/
def quantAt (v s z : EReal) : EReal :=
  s * (min (Ideal.ofBits .f32 0x41700000#32)
        (max (Ideal.ofBits .f32 0x00000000#32) (Ideal.liftRound Ideal.roundHalfEven (Ideal.div v s) + z)) - z)

end Cert.Spec

end
-- ==== Proof.ScalarChain.lean ====
/-
  The scale and the zero point as functions of M = max |min| |max| alone.

  Both programs first form M, then xmax = (M if M ≠ 0 else 1), scale = (xmax - (-xmax)) / 15 and
  zero = roundeven (-(-xmax) / scale), by the same host operations on rank-0 arrays.  Stating the chain over M
  lets each program's run be read in short stages: one stage produces M, the next consumes it.
-/
import proofs.«127435_j61151744360781_2_alg».proof.Proof.Spec

noncomputable section

namespace Cert.Spec

open Idealize.ShloMosaic

variable {F : FTy → Type} [FloatOps F]

/-- `M`, or 1 where `M` is 0. -/
def xmaxM (M : FVec F S0 .f32) : FVec F S0 .f32 :=
  select (cmpf .oeq M (constant S0 .f32 0x00000000#32)) (constant S0 .f32 0x3F800000#32) M

/-- `(xmax - (-xmax)) / 15`. -/
def scaleM (M : FVec F S0 .f32) : FVec F S0 .f32 :=
  Host.divf (subf (xmaxM M) (Host.negf (xmaxM M))) (constant S0 .f32 0x41700000#32)

/-- `roundeven (-(-xmax) / scale)`. -/
def zeroM (M : FVec F S0 .f32) : FVec F S0 .f32 :=
  Host.roundeven (Host.divf (Host.negf (Host.negf (xmaxM M))) (scaleM M))

theorem scaleOf_eq (mn mx : FVec F S0 .f32) : scaleOf mn mx = scaleM (absMax mn mx) := rfl
theorem zeroOf_eq (mn mx : FVec F S0 .f32) : zeroOf mn mx = zeroM (absMax mn mx) := rfl

end Cert.Spec

end
-- ==== Proof.KernelStages.lean ====
/-
  The idealized kernel's host operations, stretch by stretch, and the contents of its buffers along the run.

  Around and between the two kernel regions the program runs short stretches of host operations: the narrowing of
  the sketch before region 0; after it the global minimum and maximum of the per-point partial arrays, M = the larger
  of their absolute values, then xmax, the scale and the zero point, reshaped to 1 x 1 for region 1; and after region 1
  three reshapes that produce the norms, the scale and the zero point as results.  Each stretch is first read from an
  arbitrary contents valuation; then the stretches are composed along the run, the regions' arrays taken from their
  final-array theorems, giving each of the four results as a term of the two arguments.
-/
import proofs.«127435_j61151744360781_2_alg».proof.Proof.Gen.KernelIdeal.Frame
import proofs.«127435_j61151744360781_2_alg».proof.Proof.Region0
import proofs.«127435_j61151744360781_2_alg».proof.Proof.Region1
import proofs.«127435_j61151744360781_2_alg».proof.Proof.ScalarChain
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-- The minimum of an array of partial minima over both axes, from plus infinity. -/
def kmin (B : FVec F S512x128 .f32) : FVec F S_ .f32 :=
  Host.reduce FloatOps.minimumf B (constant S_ .f32 0x7F800000#32) reducesTo_S512x128_S_d0_1 h_S_
/-- The maximum of an array of partial maxima over both axes, from minus infinity. -/
def kmax (B : FVec F S512x128 .f32) : FVec F S_ .f32 :=
  Host.reduce FloatOps.maximumf B (constant S_ .f32 0xFF800000#32) reducesTo_S512x128_S_d0_1 h_S_

section Stretches
variable (W : Valuation τ sig (Elt F))

/-! ### Before region 0: the sketch narrowed -/
theorem h0_sketch : after hostOps0 W (Proc.devRef .tc main_v0) = truncf .bf16 (W (Proc.devRef .tc main_arg1)) bitsLt_bf16_f32 := by
  unfold hostOps0; after_results <;> rfl
theorem h0_keep_arg0 : after hostOps0 W (Proc.devRef .tc main_arg0) = W (Proc.devRef .tc main_arg0) := by unfold hostOps0; after_results <;> rfl

/-! ### After region 0: the global minimum and maximum, and M -/
theorem h1_M : after hostOps1 W (Proc.devRef .tc main_v6) = Cert.Spec.absMax (kmin (W (Proc.devRef .tc main_v1_2))) (kmax (W (Proc.devRef .tc main_v1_3))) := by
  unfold hostOps1; after_results <;> rfl
theorem h1_cmp : after hostOps1 W (Proc.devRef .tc main_v7) = cmpf .oeq (Cert.Spec.absMax (kmin (W (Proc.devRef .tc main_v1_2))) (kmax (W (Proc.devRef .tc main_v1_3)))) (constant S_ .f32 0x00000000#32) := by
  unfold hostOps1; after_results <;> rfl
theorem h1_one : after hostOps1 W (Proc.devRef .tc main_cst_2) = constant S_ .f32 0x3F800000#32 := by
  unfold hostOps1; after_results <;> rfl
theorem h1_keep_v1_0 : after hostOps1 W (Proc.devRef .tc main_v1_0) = W (Proc.devRef .tc main_v1_0) := by unfold hostOps1; after_results <;> rfl
theorem h1_keep_v1_1 : after hostOps1 W (Proc.devRef .tc main_v1_1) = W (Proc.devRef .tc main_v1_1) := by unfold hostOps1; after_results <;> rfl

/-! ### xmax -/
theorem h11_x : after hostOps1_1 W (Proc.devRef .tc main_v8) = select (W (Proc.devRef .tc main_v7)) (W (Proc.devRef .tc main_cst_2)) (W (Proc.devRef .tc main_v6)) := by
  unfold hostOps1_1; after_results <;> rfl
theorem h11_keep_v1_0 : after hostOps1_1 W (Proc.devRef .tc main_v1_0) = W (Proc.devRef .tc main_v1_0) := by unfold hostOps1_1; after_results <;> rfl
theorem h11_keep_v1_1 : after hostOps1_1 W (Proc.devRef .tc main_v1_1) = W (Proc.devRef .tc main_v1_1) := by unfold hostOps1_1; after_results <;> rfl

/-! ### The scale, and the quotient the zero point rounds -/
theorem h12_scale : after hostOps1_2 W (Proc.devRef .tc main_v11) = Host.divf (subf (W (Proc.devRef .tc main_v8)) (Host.negf (W (Proc.devRef .tc main_v8)))) (constant S_ .f32 0x41700000#32) := by
  unfold hostOps1_2; after_results <;> rfl
theorem h12_quot : after hostOps1_2 W (Proc.devRef .tc main_v13) = Host.divf (Host.negf (Host.negf (W (Proc.devRef .tc main_v8)))) (Host.divf (subf (W (Proc.devRef .tc main_v8)) (Host.negf (W (Proc.devRef .tc main_v8)))) (constant S_ .f32 0x41700000#32)) := by
  unfold hostOps1_2; after_results <;> rfl
theorem h12_keep_v1_0 : after hostOps1_2 W (Proc.devRef .tc main_v1_0) = W (Proc.devRef .tc main_v1_0) := by unfold hostOps1_2; after_results <;> rfl
theorem h12_keep_v1_1 : after hostOps1_2 W (Proc.devRef .tc main_v1_1) = W (Proc.devRef .tc main_v1_1) := by unfold hostOps1_2; after_results <;> rfl

/-! ### The zero point -/
theorem h13_zero : after hostOps1_3 W (Proc.devRef .tc main_v14) = Host.roundeven (W (Proc.devRef .tc main_v13)) := by
  unfold hostOps1_3; after_results <;> rfl
theorem h13_keep_v11 : after hostOps1_3 W (Proc.devRef .tc main_v11) = W (Proc.devRef .tc main_v11) := by unfold hostOps1_3; after_results <;> rfl
theorem h13_keep_v1_0 : after hostOps1_3 W (Proc.devRef .tc main_v1_0) = W (Proc.devRef .tc main_v1_0) := by unfold hostOps1_3; after_results <;> rfl
theorem h13_keep_v1_1 : after hostOps1_3 W (Proc.devRef .tc main_v1_1) = W (Proc.devRef .tc main_v1_1) := by unfold hostOps1_3; after_results <;> rfl

/-! ### The scale and the zero point as 1 x 1 arrays -/
theorem h14_scale11 : after hostOps1_4 W (Proc.devRef .tc main_v15) = shapeCast S1x1 (W (Proc.devRef .tc main_v11)) shapeCasts_S_S1x1 := by
  unfold hostOps1_4; after_results <;> rfl
theorem h14_zero11 : after hostOps1_4 W (Proc.devRef .tc main_v16) = shapeCast S1x1 (W (Proc.devRef .tc main_v14)) shapeCasts_S_S1x1 := by
  unfold hostOps1_4; after_results <;> rfl
theorem h14_keep_v11 : after hostOps1_4 W (Proc.devRef .tc main_v11) = W (Proc.devRef .tc main_v11) := by unfold hostOps1_4; after_results <;> rfl
theorem h14_keep_v14 : after hostOps1_4 W (Proc.devRef .tc main_v14) = W (Proc.devRef .tc main_v14) := by unfold hostOps1_4; after_results <;> rfl
theorem h14_keep_v1_0 : after hostOps1_4 W (Proc.devRef .tc main_v1_0) = W (Proc.devRef .tc main_v1_0) := by unfold hostOps1_4; after_results <;> rfl
theorem h14_keep_v1_1 : after hostOps1_4 W (Proc.devRef .tc main_v1_1) = W (Proc.devRef .tc main_v1_1) := by unfold hostOps1_4; after_results <;> rfl

/-! ### After region 1: the three reshaped results -/
theorem h2_norms : after hostOps2 W (Proc.devRef .tc main_v18) = shapeCast S16384 (W (Proc.devRef .tc main_v1_1)) shapeCasts_S16384x1_S16384 := by
  unfold hostOps2; after_results <;> rfl
theorem h2_scale : after hostOps2 W (Proc.devRef .tc main_v19) = shapeCast S_ (W (Proc.devRef .tc main_v11)) shapeCasts_S_S_ := by
  unfold hostOps2; after_results <;> rfl
theorem h2_zero : after hostOps2 W (Proc.devRef .tc main_v20) = shapeCast S_ (W (Proc.devRef .tc main_v14)) shapeCasts_S_S_ := by
  unfold hostOps2; after_results <;> rfl
theorem h2_keep_v17 : after hostOps2 W (Proc.devRef .tc main_v17) = W (Proc.devRef .tc main_v17) := by unfold hostOps2; after_results <;> rfl

end Stretches

/-! ## Along the run -/

section Run
variable (m : (ℓ : Loc nD τ sig) → Buf (Elt F) ℓ) (ρ : Dev nD → PrngReg) (c : Dev nD)

/-- M of the kernel: the larger absolute value of the global minimum of the partial minima and the global maximum of
    the partial maxima, over the keys `A` and the narrowed sketch `S`. -/
def kM (A : S16384x4096.Idx → Elt F .f32) (S : S1024x4096.Idx → Elt F .bf16) : FVec F S_ .f32 :=
  Cert.Spec.absMax (kmin (Region0.minArr A S)) (kmax (Region0.maxArr A S))

/-! ### Region 0's entry: the keys as launched, the sketch narrowed -/
theorem V1_keys : V1 m ρ c main_arg0 = (m ((c : Thread nD τ).loc main_arg0)) := by
  show after hostOps0 (W0 m ρ c) (Proc.devRef .tc main_arg0) = _
  rw [h0_keep_arg0]
theorem V1_sketch : V1 m ρ c main_v0 = (truncf .bf16 (m ((c : Thread nD τ).loc main_arg1)) bitsLt_bf16_f32) := by
  show after hostOps0 (W0 m ρ c) (Proc.devRef .tc main_v0) = _
  rw [h0_sketch]

/-! ### Region 0's exit: its four output arrays -/
theorem W2_proj : W2 m ρ c (Proc.devRef .tc main_v1_0) = Region0.projArr (m ((c : Thread nD τ).loc main_arg0)) (truncf .bf16 (m ((c : Thread nD τ).loc main_arg1)) bitsLt_bf16_f32) :=
  ((W2_arr m ρ c 2).trans (Region0.final2 (V1 m ρ) c)).trans (by rw [V1_keys, V1_sketch])
theorem W2_norm : W2 m ρ c (Proc.devRef .tc main_v1_1) = Region0.normArr (m ((c : Thread nD τ).loc main_arg0)) (truncf .bf16 (m ((c : Thread nD τ).loc main_arg1)) bitsLt_bf16_f32) :=
  ((W2_arr m ρ c 3).trans (Region0.final3 (V1 m ρ) c)).trans (by rw [V1_keys, V1_sketch])
theorem W2_min : W2 m ρ c (Proc.devRef .tc main_v1_2) = Region0.minArr (m ((c : Thread nD τ).loc main_arg0)) (truncf .bf16 (m ((c : Thread nD τ).loc main_arg1)) bitsLt_bf16_f32) :=
  ((W2_arr m ρ c 4).trans (Region0.final4 (V1 m ρ) c)).trans (by rw [V1_keys, V1_sketch])
theorem W2_max : W2 m ρ c (Proc.devRef .tc main_v1_3) = Region0.maxArr (m ((c : Thread nD τ).loc main_arg0)) (truncf .bf16 (m ((c : Thread nD τ).loc main_arg1)) bitsLt_bf16_f32) :=
  ((W2_arr m ρ c 5).trans (Region0.final5 (V1 m ρ) c)).trans (by rw [V1_keys, V1_sketch])

/-! ### Between the regions -/
theorem W3_M : W3 m ρ c (Proc.devRef .tc main_v6) = kM (m ((c : Thread nD τ).loc main_arg0)) (truncf .bf16 (m ((c : Thread nD τ).loc main_arg1)) bitsLt_bf16_f32) := by
  show after hostOps1 (W2 m ρ c) (Proc.devRef .tc main_v6) = _
  rw [h1_M, W2_min, W2_max]; rfl
theorem W4_xmax : W4 m ρ c (Proc.devRef .tc main_v8) = Cert.Spec.xmaxM (kM (m ((c : Thread nD τ).loc main_arg0)) (truncf .bf16 (m ((c : Thread nD τ).loc main_arg1)) bitsLt_bf16_f32)) := by
  show after hostOps1_1 (after hostOps1 (W2 m ρ c)) (Proc.devRef .tc main_v8) = _
  rw [h11_x, h1_cmp, h1_one, h1_M, W2_min, W2_max]; rfl
theorem W5_scale : W5 m ρ c (Proc.devRef .tc main_v11) = Cert.Spec.scaleM (kM (m ((c : Thread nD τ).loc main_arg0)) (truncf .bf16 (m ((c : Thread nD τ).loc main_arg1)) bitsLt_bf16_f32)) := by
  show after hostOps1_2 (W4 m ρ c) (Proc.devRef .tc main_v11) = _
  rw [h12_scale, W4_xmax]; rfl
theorem W5_quot : W5 m ρ c (Proc.devRef .tc main_v13) = Host.divf (Host.negf (Host.negf (Cert.Spec.xmaxM (kM (m ((c : Thread nD τ).loc main_arg0)) (truncf .bf16 (m ((c : Thread nD τ).loc main_arg1)) bitsLt_bf16_f32))))) (Cert.Spec.scaleM (kM (m ((c : Thread nD τ).loc main_arg0)) (truncf .bf16 (m ((c : Thread nD τ).loc main_arg1)) bitsLt_bf16_f32))) := by
  show after hostOps1_2 (W4 m ρ c) (Proc.devRef .tc main_v13) = _
  rw [h12_quot, W4_xmax]; rfl
theorem W6_zero : W6 m ρ c (Proc.devRef .tc main_v14) = Cert.Spec.zeroM (kM (m ((c : Thread nD τ).loc main_arg0)) (truncf .bf16 (m ((c : Thread nD τ).loc main_arg1)) bitsLt_bf16_f32)) := by
  show after hostOps1_3 (W5 m ρ c) (Proc.devRef .tc main_v14) = _
  rw [h13_zero, W5_quot]; rfl
theorem W6_scale : W6 m ρ c (Proc.devRef .tc main_v11) = Cert.Spec.scaleM (kM (m ((c : Thread nD τ).loc main_arg0)) (truncf .bf16 (m ((c : Thread nD τ).loc main_arg1)) bitsLt_bf16_f32)) := by
  show after hostOps1_3 (W5 m ρ c) (Proc.devRef .tc main_v11) = _
  rw [h13_keep_v11, W5_scale]

/-! ### Region 1's entry -/
theorem V7_scale11 : V7 m ρ c main_v15 = shapeCast S1x1 (Cert.Spec.scaleM (kM (m ((c : Thread nD τ).loc main_arg0)) (truncf .bf16 (m ((c : Thread nD τ).loc main_arg1)) bitsLt_bf16_f32))) shapeCasts_S_S1x1 := by
  show after hostOps1_4 (W6 m ρ c) (Proc.devRef .tc main_v15) = _
  rw [h14_scale11, W6_scale]
theorem V7_zero11 : V7 m ρ c main_v16 = shapeCast S1x1 (Cert.Spec.zeroM (kM (m ((c : Thread nD τ).loc main_arg0)) (truncf .bf16 (m ((c : Thread nD τ).loc main_arg1)) bitsLt_bf16_f32))) shapeCasts_S_S1x1 := by
  show after hostOps1_4 (W6 m ρ c) (Proc.devRef .tc main_v16) = _
  rw [h14_zero11, W6_zero]
theorem V7_proj : V7 m ρ c main_v1_0 = Region0.projArr (m ((c : Thread nD τ).loc main_arg0)) (truncf .bf16 (m ((c : Thread nD τ).loc main_arg1)) bitsLt_bf16_f32) := by
  show after hostOps1_4 (after hostOps1_3 (after hostOps1_2 (after hostOps1_1 (after hostOps1 (W2 m ρ c))))) (Proc.devRef .tc main_v1_0) = _
  rw [h14_keep_v1_0, h13_keep_v1_0, h12_keep_v1_0, h11_keep_v1_0, h1_keep_v1_0, W2_proj]
theorem W7_norm : W7 m ρ c (Proc.devRef .tc main_v1_1) = Region0.normArr (m ((c : Thread nD τ).loc main_arg0)) (truncf .bf16 (m ((c : Thread nD τ).loc main_arg1)) bitsLt_bf16_f32) := by
  show after hostOps1_4 (after hostOps1_3 (after hostOps1_2 (after hostOps1_1 (after hostOps1 (W2 m ρ c))))) (Proc.devRef .tc main_v1_1) = _
  rw [h14_keep_v1_1, h13_keep_v1_1, h12_keep_v1_1, h11_keep_v1_1, h1_keep_v1_1, W2_norm]
theorem W7_scale : W7 m ρ c (Proc.devRef .tc main_v11) = Cert.Spec.scaleM (kM (m ((c : Thread nD τ).loc main_arg0)) (truncf .bf16 (m ((c : Thread nD τ).loc main_arg1)) bitsLt_bf16_f32)) := by
  show after hostOps1_4 (W6 m ρ c) (Proc.devRef .tc main_v11) = _
  rw [h14_keep_v11, W6_scale]
theorem W7_zero : W7 m ρ c (Proc.devRef .tc main_v14) = Cert.Spec.zeroM (kM (m ((c : Thread nD τ).loc main_arg0)) (truncf .bf16 (m ((c : Thread nD τ).loc main_arg1)) bitsLt_bf16_f32)) := by
  show after hostOps1_4 (W6 m ρ c) (Proc.devRef .tc main_v14) = _
  rw [h14_keep_v14, W6_zero]

/-! ### Region 1's exit, and the four results -/
theorem W8_quant : W8 m ρ c (Proc.devRef .tc main_v17) = Region1.quantArr (Region0.projArr (m ((c : Thread nD τ).loc main_arg0)) (truncf .bf16 (m ((c : Thread nD τ).loc main_arg1)) bitsLt_bf16_f32))
    (shapeCast S1x1 (Cert.Spec.scaleM (kM (m ((c : Thread nD τ).loc main_arg0)) (truncf .bf16 (m ((c : Thread nD τ).loc main_arg1)) bitsLt_bf16_f32))) shapeCasts_S_S1x1) (shapeCast S1x1 (Cert.Spec.zeroM (kM (m ((c : Thread nD τ).loc main_arg0)) (truncf .bf16 (m ((c : Thread nD τ).loc main_arg1)) bitsLt_bf16_f32))) shapeCasts_S_S1x1) :=
  ((W8_arr m ρ c 3).trans (Region1.final3 (V7 m ρ) c)).trans (by rw [V7_proj, V7_scale11, V7_zero11])

theorem result_quant : W9 m ρ c (Proc.devRef .tc main_v17) = Region1.quantArr (Region0.projArr (m ((c : Thread nD τ).loc main_arg0)) (truncf .bf16 (m ((c : Thread nD τ).loc main_arg1)) bitsLt_bf16_f32))
    (shapeCast S1x1 (Cert.Spec.scaleM (kM (m ((c : Thread nD τ).loc main_arg0)) (truncf .bf16 (m ((c : Thread nD τ).loc main_arg1)) bitsLt_bf16_f32))) shapeCasts_S_S1x1) (shapeCast S1x1 (Cert.Spec.zeroM (kM (m ((c : Thread nD τ).loc main_arg0)) (truncf .bf16 (m ((c : Thread nD τ).loc main_arg1)) bitsLt_bf16_f32))) shapeCasts_S_S1x1) := by
  show after hostOps2 (W8 m ρ c) (Proc.devRef .tc main_v17) = _
  rw [h2_keep_v17, W8_quant]
theorem result_norms : W9 m ρ c (Proc.devRef .tc main_v18) = shapeCast S16384 (Region0.normArr (m ((c : Thread nD τ).loc main_arg0)) (truncf .bf16 (m ((c : Thread nD τ).loc main_arg1)) bitsLt_bf16_f32)) shapeCasts_S16384x1_S16384 := by
  show after hostOps2 (W8 m ρ c) (Proc.devRef .tc main_v18) = _
  rw [h2_norms, W8_of_ne m ρ c main_v1_1 (by decide), W7_norm]
theorem result_scale : W9 m ρ c (Proc.devRef .tc main_v19) = shapeCast S_ (Cert.Spec.scaleM (kM (m ((c : Thread nD τ).loc main_arg0)) (truncf .bf16 (m ((c : Thread nD τ).loc main_arg1)) bitsLt_bf16_f32))) shapeCasts_S_S_ := by
  show after hostOps2 (W8 m ρ c) (Proc.devRef .tc main_v19) = _
  rw [h2_scale, W8_of_ne m ρ c main_v11 (by decide), W7_scale]
theorem result_zero : W9 m ρ c (Proc.devRef .tc main_v20) = shapeCast S_ (Cert.Spec.zeroM (kM (m ((c : Thread nD τ).loc main_arg0)) (truncf .bf16 (m ((c : Thread nD τ).loc main_arg1)) bitsLt_bf16_f32))) shapeCasts_S_S_ := by
  show after hostOps2 (W8 m ρ c) (Proc.devRef .tc main_v20) = _
  rw [h2_zero, W8_of_ne m ρ c main_v14 (by decide), W7_zero]

end Run

end Cert.KernelIdeal.Stages

end
-- ==== Proof.PayloadAt.lean ====
/-
  The idealized kernel's payloads, read at an index.

Every value the two kernel bodies store, over the extended reals (a float is an extended real, every
operation the exact one, a change of format the identity), read at explicit coordinates.

* The projection payload at row `a`, column `p` is the contraction over the shared axis of length 4096:
  `∑ d, x0 (a, d) * x1 (p, d)` — the matmul accumulates into the zero splat, its left operand is the
  format change of `x0` (the identity here) and its right operand a cast of `x1` to its own shape.
* The norm payload at row `a` is `sqrt (∑ d, x0 (a, d) * x0 (a, d))`: a sum over axis 1 from the zero
  word, a cast of the 256-vector to a 256×1 column, then the square root entry by entry.
* The minimum payload is constant in its index: the minimum over axis 1 of the 256×1024 projection from
  the word of `+∞`, a cast to a column, the minimum over axis 0 from `+∞` again, casts to 1×1 and a
  broadcast to 8×128 — the infimum over rows of the infimum over columns of the projection.
* The maximum payload likewise, from the word of `-∞`: the supremum over rows of the supremum over columns.
* The quantization payload at `(a, p)` is the per-entry formula
  `s * (min 15 (max 0 (roundeven (x / s) + z)) - z)` with `s`, `z` the single entries of the two 1×1 operands.
-/
import proofs.«127435_j61151744360781_2_alg».proof.Proof.Gen.KernelIdeal.Skeleton
import proofs.«127435_j61151744360781_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayloadAt

open Cert.KernelIdeal Cert.KernelIdeal.Gen Idealize.ShloMosaic Idealize.ShloMosaic.ValueIdx

/-! ## The projection -/

/-- The dot's name, shortened. -/
local notation "D₀" => dot_S256x4096_S1024x4096_S256x1024_1_1_0_0_n_n

/-- The left operand's row is the output's row. -/
theorem lhs_0 (i : S256x1024.Idx) (q : (DotDims.contr D₀).Idx) : (DotDims.lhsIdx D₀ i q 0).val = (i 0).val := by
  unfold DotDims.lhsIdx
  rw [dif_neg (show ¬(0 : Fin S256x4096.rank) ∈ DotDims.lhsBatch D₀ by decide),
    dif_pos (show (0 : Fin S256x4096.rank) ∈ DotDims.lhsNonContracting D₀ by decide)]
  rfl

/-- The left operand's column is the contraction coordinate. -/
theorem lhs_1 (i : S256x1024.Idx) (q : (DotDims.contr D₀).Idx) : (DotDims.lhsIdx D₀ i q 1).val = (q ⟨0, by decide⟩).val :=
  DotDims.lhsIdx_val_of_single D₀ rfl i q

/-- The right operand's row is the output's column. -/
theorem rhs_0 (i : S256x1024.Idx) (q : (DotDims.contr D₀).Idx) : (DotDims.rhsIdx D₀ i q 0).val = (i 1).val := by
  unfold DotDims.rhsIdx
  rw [dif_neg (show ¬(0 : Fin S1024x4096.rank) ∈ DotDims.rhsBatch D₀ by decide),
    dif_pos (show (0 : Fin S1024x4096.rank) ∈ DotDims.rhsNonContracting D₀ by decide)]
  rfl

/-- The right operand's column is the contraction coordinate. -/
theorem rhs_1 (i : S256x1024.Idx) (q : (DotDims.contr D₀).Idx) : (DotDims.rhsIdx D₀ i q 1).val = (q ⟨0, by decide⟩).val :=
  DotDims.rhsIdx_val_of_single D₀ rfl i q

/-- The projection at `(a, p)`: the contraction of row `a` of `x0` with row `p` of `x1`. -/
theorem proj_at (x0 : Vec Ideal S256x4096 .f32) (x1 : Vec Ideal S1024x4096 .bf16) (a : Fin 256) (p : Fin 1024) :
    k0_pay1 (F := Ideal) x0 x1 (ix2 a p) = ∑ d : Fin 4096, x0 (ix2 a d) * x1 (ix2 p d) := by
  unfold k0_pay1
  refine (Ideal.matmul_constant_zero_apply D₀ none _ _ (ix2 a p)).trans ?_
  rw [← Equiv.sum_comp (contrEquiv1 D₀ 4096 rfl rfl).symm]
  refine Finset.sum_congr rfl fun d _ => ?_
  have hd := contrEquiv1_symm_val D₀ 4096 rfl rfl d
  have el : DotDims.lhsIdx D₀ (ix2 a p) ((contrEquiv1 D₀ 4096 rfl rfl).symm d) = ix2 a d := funext fun c => Fin.ext (by
    match c with
    | ⟨0, _⟩ => exact lhs_0 _ _
    | ⟨1, _⟩ => exact (lhs_1 _ _).trans hd)
  have er : DotDims.rhsIdx D₀ (ix2 a p) ((contrEquiv1 D₀ 4096 rfl rfl).symm d) = ix2 p d := funext fun c => Fin.ext (by
    match c with
    | ⟨0, _⟩ => exact rhs_0 _ _
    | ⟨1, _⟩ => exact (rhs_1 _ _).trans hd)
  rw [el, er, shapeCast_self]
  rfl

/-! ## The row norm -/

/-- A cast of a vector to a column reads the vector at the row. -/
theorem col_at {α : Type} {n : Nat} (v : (⟨1, ![n]⟩ : Shape).Idx → α)
    (h : (⟨1, ![n]⟩ : Shape).ShapeCasts ⟨2, ![n, 1]⟩) (a : Fin n) (b : Fin 1) :
    shapeCast ⟨2, ![n, 1]⟩ v h (ix2 a b) = v (ix1 a) :=
  shapeCast_apply v h _ _ (by
    have hb : b.val = 0 := by omega
    rw [Shape.rowMajor_val_two, Shape.rowMajor_val_one]
    show a.val = a.val * 1 + b.val
    omega)

/-- The norm at row `a`: the square root of the sum of the squares along the row. -/
theorem norm_at (x0 : Vec Ideal S256x4096 .f32) (a : Fin 256) (b : Fin 1) :
    k0_pay2 (F := Ideal) x0 (ix2 a b) = Ideal.sqrt (∑ d : Fin 4096, x0 (ix2 a d) * x0 (ix2 a d)) := by
  unfold k0_pay2
  refine congrArg Ideal.sqrt ?_
  refine (col_at _ shapeCasts_S256_S256x1 a b).trans ?_
  refine (Ideal.multiReduction_add_single (mulf x0 x0) _ reduces_S256x4096_S256 (.inl rfl) rfl (ix1 a)).trans ?_
  refine Finset.sum_congr rfl fun d _ => ?_
  have e : Shape.Reduces.lift reduces_S256x4096_S256 (ix1 a) d = ix2 a d := funext fun c => Fin.ext (by
    match c with
    | ⟨0, _⟩ => rfl
    | ⟨1, _⟩ => rfl)
  rw [e]
  rfl

/-! ## The quantized entry -/

/-- A broadcast of a 1×1 vector to a rank-2 shape reads its one entry. -/
theorem bcast11_at {α : Type} {n0 n1 : Nat} (v : S1x1.Idx → α) (h : S1x1.Broadcasts ⟨2, ![n0, n1]⟩)
    (j : (⟨2, ![n0, n1]⟩ : Shape).Idx) : broadcastTo ⟨2, ![n0, n1]⟩ v h j = v (ix2 0 0) :=
  broadcastTo_apply v h j (ix2 0 0) fun c => match c with
    | ⟨0, _⟩ => (if_pos rfl).symm
    | ⟨1, _⟩ => (if_pos rfl).symm

/-- The quantized entry at `(a, p)`: the per-entry formula at the entry of `x` there, with the scale and the
    zero point the single entries of the two 1×1 operands. -/
theorem quant_at (s z : Vec Ideal S1x1 .f32) (x : Vec Ideal S1024x1024 .f32) (a p : Fin 1024) :
    k1_pay1 (F := Ideal) s z x (ix2 a p) = Cert.Spec.quantAt (x (ix2 a p)) (s (ix2 0 0)) (z (ix2 0 0)) := by
  have hs : broadcastTo S1024x1024 (shapeCast S1x1 s shapeCasts_S1x1_S1x1) broadcasts_S1x1_S1024x1024 (ix2 a p)
      = s (ix2 0 0) := by
    rw [shapeCast_self]; exact bcast11_at s _ _
  have hz : broadcastTo S1024x1024 (shapeCast S1x1 z shapeCasts_S1x1_S1x1) broadcasts_S1x1_S1024x1024 (ix2 a p)
      = z (ix2 0 0) := by
    rw [shapeCast_self]; exact bcast11_at z _ _
  have hx : shapeCast S1024x1024 x shapeCasts_S1024x1024_S1024x1024 (ix2 a p) = x (ix2 a p) := by
    rw [shapeCast_self]
  unfold k1_pay1 Cert.Spec.quantAt
  show broadcastTo S1024x1024 (shapeCast S1x1 s shapeCasts_S1x1_S1x1) broadcasts_S1x1_S1024x1024 (ix2 a p)
      * (min (Ideal.ofBits .f32 0x41700000#32)
          (max (Ideal.ofBits .f32 0x00000000#32)
            (Ideal.liftRound Ideal.roundHalfEven
                (Ideal.div (shapeCast S1024x1024 x shapeCasts_S1024x1024_S1024x1024 (ix2 a p))
                  (broadcastTo S1024x1024 (shapeCast S1x1 s shapeCasts_S1x1_S1x1) broadcasts_S1x1_S1024x1024 (ix2 a p)))
              + broadcastTo S1024x1024 (shapeCast S1x1 z shapeCasts_S1x1_S1x1) broadcasts_S1x1_S1024x1024 (ix2 a p)))
        - broadcastTo S1024x1024 (shapeCast S1x1 z shapeCasts_S1x1_S1x1) broadcasts_S1x1_S1024x1024 (ix2 a p)) = _
  rw [hs, hz, hx]

/-! ## The global minimum and maximum -/

/-- The accumulator word of a minimum reduction is `+∞`. -/
theorem ofBits_pinf : Ideal.ofBits .f32 0x7F800000#32 = ⊤ := by simp [Ideal.ofBits, Ideal.ieee]

/-- The accumulator word of a maximum reduction is `-∞`. -/
theorem ofBits_ninf : Ideal.ofBits .f32 0xFF800000#32 = ⊥ := by simp [Ideal.ofBits, Ideal.ieee]

/-- A minimum reduction over one axis from `+∞` is the infimum over that axis's coordinates. -/
theorem min_single {s t : Shape} {c : Fin s.rank} (src : FVec Ideal s .f32) (acc : BitVec (FTy.bits .f32))
    (h : s.Reduces [c] t) (hφ : FKind.Formats .f32) (hacc : acc = FKind.minimumf.neutral .f32 hφ)
    (htop : Ideal.ofBits .f32 acc = ⊤) (j : t.Idx) :
    multiReduction (F := Ideal) .minimumf [c] t src acc h hφ hacc j
      = Finset.univ.inf fun k : Fin (s.size c) => src (h.lift j k) := by
  rw [multiReduction_minimumf_eq_fold]
  refine (h.fold_filter_drop_single _ _ src j).trans ?_
  show Finset.univ.fold min (Ideal.ofBits .f32 acc) _ = _
  rw [htop]
  rfl

/-- A maximum reduction over one axis from `-∞` is the supremum over that axis's coordinates. -/
theorem max_single {s t : Shape} {c : Fin s.rank} (src : FVec Ideal s .f32) (acc : BitVec (FTy.bits .f32))
    (h : s.Reduces [c] t) (hφ : FKind.Formats .f32) (hacc : acc = FKind.maximumf.neutral .f32 hφ)
    (hbot : Ideal.ofBits .f32 acc = ⊥) (j : t.Idx) :
    multiReduction (F := Ideal) .maximumf [c] t src acc h hφ hacc j
      = Finset.univ.sup fun k : Fin (s.size c) => src (h.lift j k) := by
  rw [multiReduction_maximumf_eq_fold]
  refine (h.fold_filter_drop_single _ _ src j).trans ?_
  show Finset.univ.fold max (Ideal.ofBits .f32 acc) _ = _
  rw [hbot]
  rfl

/-- The minimum payload, at every index: the infimum over rows of the infimum over columns of the projection. -/
theorem min_at (x0 : Vec Ideal S256x4096 .f32) (x1 : Vec Ideal S1024x4096 .bf16) (y : S8x128.Idx) :
    k0_pay3 (F := Ideal) x0 x1 y = Finset.univ.inf fun a : Fin 256 => Finset.univ.inf fun p : Fin 1024 => k0_pay1 (F := Ideal) x0 x1 (ix2 a p) := by
  unfold k0_pay3
  generalize k0_pay1 (F := Ideal) x0 x1 = P
  refine (bcast11_at _ broadcasts_S1x1_S8x128 y).trans ?_
  rw [shapeCast_self]
  refine (shapeCast_a_1a_apply _ shapeCasts_S1_S1x1 0 0).trans ?_
  refine (min_single _ _ reduces_S256x1_S1 (.inl rfl) rfl ofBits_pinf (ix1 0)).trans ?_
  refine Finset.inf_congr rfl fun a _ => ?_
  have e : Shape.Reduces.lift reduces_S256x1_S1 (ix1 0) a = ix2 a 0 := funext fun c => Fin.ext (by
    match c with
    | ⟨0, _⟩ => rfl
    | ⟨1, _⟩ => rfl)
  rw [e]
  refine (col_at _ shapeCasts_S256_S256x1 a 0).trans ?_
  refine (min_single P _ reduces_S256x1024_S256 (.inl rfl) rfl ofBits_pinf (ix1 a)).trans ?_
  refine Finset.inf_congr rfl fun p _ => ?_
  exact congrArg P (funext fun c => Fin.ext (by
    match c with
    | ⟨0, _⟩ => rfl
    | ⟨1, _⟩ => rfl))

/-- The maximum payload, at every index: the supremum over rows of the supremum over columns of the projection. -/
theorem max_at (x0 : Vec Ideal S256x4096 .f32) (x1 : Vec Ideal S1024x4096 .bf16) (y : S8x128.Idx) :
    k0_pay4 (F := Ideal) x0 x1 y = Finset.univ.sup fun a : Fin 256 => Finset.univ.sup fun p : Fin 1024 => k0_pay1 (F := Ideal) x0 x1 (ix2 a p) := by
  unfold k0_pay4
  generalize k0_pay1 (F := Ideal) x0 x1 = P
  refine (bcast11_at _ broadcasts_S1x1_S8x128 y).trans ?_
  rw [shapeCast_self]
  refine (shapeCast_a_1a_apply _ shapeCasts_S1_S1x1 0 0).trans ?_
  refine (max_single _ _ reduces_S256x1_S1 (.inl rfl) rfl ofBits_ninf (ix1 0)).trans ?_
  refine Finset.sup_congr rfl fun a _ => ?_
  have e : Shape.Reduces.lift reduces_S256x1_S1 (ix1 0) a = ix2 a 0 := funext fun c => Fin.ext (by
    match c with
    | ⟨0, _⟩ => rfl
    | ⟨1, _⟩ => rfl)
  rw [e]
  refine (col_at _ shapeCasts_S256_S256x1 a 0).trans ?_
  refine (max_single P _ reduces_S256x1024_S256 (.inl rfl) rfl ofBits_ninf (ix1 a)).trans ?_
  refine Finset.sup_congr rfl fun p _ => ?_
  exact congrArg P (funext fun c => Fin.ext (by
    match c with
    | ⟨0, _⟩ => rfl
    | ⟨1, _⟩ => rfl))

end Cert.KernelIdeal.PayloadAt

end
-- ==== Proof.Lattice.lean ====
/-
  The infimum of a finite family equals the infimum of any family of partial infima that covers it.

  If every member of a family `B` is bounded below by the infimum of `P` (each `B k` is an infimum of
  some of the `P i`), and every `P i` lies above some `B k` (the partial infima cover the whole family),
  then the two families have the same infimum.  This is how a minimum taken block by block and then over the
  blocks' minima equals the minimum taken once over everything; the dual statement does the same for maxima.
  Only the lattice order is used: no arithmetic, so nothing here depends on the entries being finite.
-/
import Mathlib.Data.Finset.Lattice.Fold
import Mathlib.Data.Fintype.Basic

namespace Cert.Lattice

variable {α ι κ : Type*}

/-- Partial infima that cover a family have the family's infimum. -/
theorem inf_partials [SemilatticeInf α] [OrderTop α] [Fintype ι] [Fintype κ] (P : ι → α) (B : κ → α)
    (hlow : ∀ k, Finset.univ.inf P ≤ B k) (hcov : ∀ i, ∃ k, B k ≤ P i) :
    Finset.univ.inf B = Finset.univ.inf P := by
  apply le_antisymm
  · refine Finset.le_inf fun i _ => ?_
    obtain ⟨k, hk⟩ := hcov i
    exact (Finset.inf_le (Finset.mem_univ k)).trans hk
  · exact Finset.le_inf fun k _ => hlow k

/-- Partial suprema that cover a family have the family's supremum. -/
theorem sup_partials [SemilatticeSup α] [OrderBot α] [Fintype ι] [Fintype κ] (P : ι → α) (B : κ → α)
    (hupp : ∀ k, B k ≤ Finset.univ.sup P) (hcov : ∀ i, ∃ k, P i ≤ B k) :
    Finset.univ.sup B = Finset.univ.sup P := by
  apply le_antisymm
  · exact Finset.sup_le fun k _ => hupp k
  · refine Finset.sup_le fun i _ => ?_
    obtain ⟨k, hk⟩ := hcov i
    exact hk.trans (Finset.le_sup (Finset.mem_univ k))

/-- A fold of `min` from the top element is the infimum. -/
theorem fold_min_top [LinearOrder α] [OrderTop α] {β : Type*} (s : Finset β) (f : β → α) :
    s.fold min ⊤ f = s.inf f := rfl

/-- A fold of `max` from the bottom element is the supremum. -/
theorem fold_max_bot [LinearOrder α] [OrderBot α] {β : Type*} (s : Finset β) (f : β → α) :
    s.fold max ⊥ f = s.sup f := rfl

end Cert.Lattice
-- ==== Proof.KernelArrays.lean ====
/-
  The kernel's final arrays, read at an index, over the extended reals.

  Each output array of the two regions holds, at an index, the body's stored value computed from the row
  block the index belongs to, at the index's position inside the block.  Reading the body's stored values at
  explicit coordinates turns this into closed forms over the whole input arrays:

  * the projected array at `(r, p)` is `∑ d, A (r, d) * S (p, d)`: row `r` is row `r mod 256` of block
    `r / 256`, and `256 * (r / 256) + r mod 256 = r`;
  * the norms column at row `r` is `sqrt (∑ d, A (r, d) * A (r, d))`;
  * every entry of the array of per-block minima in block `t` is the infimum of the projected array over the
    256 rows of block `t` and all 1024 columns; these partial infima lie above the global infimum and every
    entry of the projected array lies above the partial infimum of its own block, so the infimum of the
    per-block minima is the infimum of the whole projected array; dually for the maxima and suprema;
  * the quantized array at an index `i` is the per-entry formula at the projected entry `P i`, with the scale
    and the zero point the single entries of the two 1 x 1 arrays.
-/
import proofs.«127435_j61151744360781_2_alg».proof.Proof.Region0
import proofs.«127435_j61151744360781_2_alg».proof.Proof.Region1
import proofs.«127435_j61151744360781_2_alg».proof.Proof.PayloadAt
import proofs.«127435_j61151744360781_2_alg».proof.Proof.Lattice
import proofs.«127435_j61151744360781_2_alg».proof.Proof.Spec

noncomputable section

namespace Cert.KernelIdeal.Arrays

open Cert.KernelIdeal Cert.KernelIdeal.Gen Cert.KernelIdeal.Region0 Idealize.ShloMosaic Idealize.ShloMosaic.ValueIdx

/-! ## Row blocks of the keys -/

/-- Row `a` of block `t` of the keys is row `256 t + a` of the keys. -/
theorem rowBlock_at {F : FTy → Type} (A : S16384x4096.Idx → Elt F .f32) (t : Fin 64) (a : Fin 256) (d : Fin 4096)
    (r : Fin 16384) (hr : r.val = 256 * t.val + a.val) : rowBlock A t (ix2 a d) = A (ix2 r d) := by
  unfold rowBlock
  exact congrArg A (funext fun c => Fin.ext (by
    match c with
    | ⟨0, _⟩ => exact hr.symm
    | ⟨1, _⟩ => rfl))

/-! ## The projected array and the norms column -/

/-- The projected array at `(r, p)`: the contraction of row `r` of the keys with row `p` of the sketch. -/
theorem projArr_ix (A : S16384x4096.Idx → Elt Ideal .f32) (S : S1024x4096.Idx → Elt Ideal .bf16) (r : Fin 16384) (p : Fin 1024) :
    projArr (F := Ideal) A S (ix2 r p) = ∑ d : Fin 4096, A (ix2 r d) * S (ix2 p d) := by
  unfold projArr pos2 blk2
  refine (PayloadAt.proj_at _ _ _ _).trans ?_
  refine Finset.sum_congr rfl fun d _ => ?_
  rw [rowBlock_at A _ _ d r (Nat.div_add_mod r.val 256).symm]

/-- The norms column at row `r`: the square root of the sum of the squares along row `r` of the keys. -/
theorem normArr_ix (A : S16384x4096.Idx → Elt Ideal .f32) (S : S1024x4096.Idx → Elt Ideal .bf16) (r : Fin 16384) (b : Fin 1) :
    normArr (F := Ideal) A S (ix2 r b) = Ideal.sqrt (∑ d : Fin 4096, A (ix2 r d) * A (ix2 r d)) := by
  unfold normArr pos3 blk3
  refine (PayloadAt.norm_at _ _ _).trans ?_
  refine congrArg Ideal.sqrt (Finset.sum_congr rfl fun d _ => ?_)
  rw [rowBlock_at A _ _ d r (Nat.div_add_mod r.val 256).symm]

/-! ## The per-block minima and maxima -/

/-- Row `a` of block `t` is a row of the array. -/
theorem row_lt (t : Fin 64) (a : Fin 256) : 256 * t.val + a.val < 16384 := by
  have := t.isLt; have := a.isLt; omega

/-- Every entry of block `t` of the minima is the infimum of the projected array over block `t`'s rows. -/
theorem minArr_eq (A : S16384x4096.Idx → Elt Ideal .f32) (S : S1024x4096.Idx → Elt Ideal .bf16) (k : S512x128.Idx) :
    minArr (F := Ideal) A S k = Finset.univ.inf fun a : Fin 256 => Finset.univ.inf fun p : Fin 1024 =>
      projArr (F := Ideal) A S (ix2 (⟨256 * (blk4 k).val + a.val, row_lt (blk4 k) a⟩ : Fin 16384) p) := by
  unfold minArr
  refine (PayloadAt.min_at _ _ _).trans ?_
  refine Finset.inf_congr rfl fun a _ => Finset.inf_congr rfl fun p _ => ?_
  exact (projArr_at A S (blk4 k) (ix2 a p) _ rfl rfl).symm

/-- Every entry of block `t` of the maxima is the supremum of the projected array over block `t`'s rows. -/
theorem maxArr_eq (A : S16384x4096.Idx → Elt Ideal .f32) (S : S1024x4096.Idx → Elt Ideal .bf16) (k : S512x128.Idx) :
    maxArr (F := Ideal) A S k = Finset.univ.sup fun a : Fin 256 => Finset.univ.sup fun p : Fin 1024 =>
      projArr (F := Ideal) A S (ix2 (⟨256 * (blk5 k).val + a.val, row_lt (blk5 k) a⟩ : Fin 16384) p) := by
  unfold maxArr
  refine (PayloadAt.max_at _ _ _).trans ?_
  refine Finset.sup_congr rfl fun a _ => Finset.sup_congr rfl fun p _ => ?_
  exact (projArr_at A S (blk5 k) (ix2 a p) _ rfl rfl).symm

/-- The first entry of the tile of the block that row `i 0` of the projected array belongs to. -/
def tileOf (i : S16384x1024.Idx) : S512x128.Idx :=
  ix2 (⟨8 * ((i 0).val / 256), by have := idx2_lt0 i; omega⟩ : Fin 512) (⟨0, by decide⟩ : Fin 128)

/-- An index of the projected array is row `i 0 mod 256` of its tile's block, at column `i 1`. -/
theorem ix_tileOf (i : S16384x1024.Idx) (t : Fin 64) (ht : t.val = (8 * ((i 0).val / 256)) / 8) (h : 256 * t.val + (i 0).val % 256 < 16384) :
    ix2 (⟨256 * t.val + (i 0).val % 256, h⟩ : Fin 16384) (⟨(i 1).val, idx2_lt1 i⟩ : Fin 1024) = i :=
  funext fun c => Fin.ext (by
    match c with
    | ⟨0, _⟩ => show 256 * t.val + (i 0).val % 256 = (i 0).val; omega
    | ⟨1, _⟩ => rfl)

/-- The infimum of the per-block minima is the infimum of the projected array. -/
theorem minArr_inf (A : S16384x4096.Idx → Elt Ideal .f32) (S : S1024x4096.Idx → Elt Ideal .bf16) :
    Finset.univ.inf (minArr (F := Ideal) A S) = Finset.univ.inf (projArr (F := Ideal) A S) := by
  refine Cert.Lattice.inf_partials (projArr (F := Ideal) A S) (minArr (F := Ideal) A S) (fun k => ?_) (fun i => ⟨tileOf i, ?_⟩)
  · rw [minArr_eq]
    exact Finset.le_inf fun a _ => Finset.le_inf fun p _ => Finset.inf_le (Finset.mem_univ _)
  · rw [minArr_eq]
    refine (Finset.inf_le (Finset.mem_univ (⟨(i 0).val % 256, Nat.mod_lt _ (by decide)⟩ : Fin 256))).trans ?_
    refine (Finset.inf_le (Finset.mem_univ (⟨(i 1).val, idx2_lt1 i⟩ : Fin 1024))).trans ?_
    exact le_of_eq (congrArg (projArr (F := Ideal) A S) (ix_tileOf i (blk4 (tileOf i)) rfl _))

/-- The supremum of the per-block maxima is the supremum of the projected array. -/
theorem maxArr_sup (A : S16384x4096.Idx → Elt Ideal .f32) (S : S1024x4096.Idx → Elt Ideal .bf16) :
    Finset.univ.sup (maxArr (F := Ideal) A S) = Finset.univ.sup (projArr (F := Ideal) A S) := by
  refine Cert.Lattice.sup_partials (projArr (F := Ideal) A S) (maxArr (F := Ideal) A S) (fun k => ?_) (fun i => ⟨tileOf i, ?_⟩)
  · rw [maxArr_eq]
    exact Finset.sup_le fun a _ => Finset.sup_le fun p _ => Finset.le_sup (f := projArr (F := Ideal) A S) (Finset.mem_univ _)
  · rw [maxArr_eq]
    refine le_trans ?_ (Finset.le_sup (Finset.mem_univ (⟨(i 0).val % 256, Nat.mod_lt _ (by decide)⟩ : Fin 256)))
    refine le_trans ?_ (Finset.le_sup (Finset.mem_univ (⟨(i 1).val, idx2_lt1 i⟩ : Fin 1024)))
    exact le_of_eq (congrArg (projArr (F := Ideal) A S) (ix_tileOf i (blk5 (tileOf i)) rfl _)).symm

/-! ## The quantized array -/

/-- The quantized array at an index: the per-entry formula at the projected entry there. -/
theorem quantArr_ix (P : S16384x1024.Idx → Elt Ideal .f32) (s z : S1x1.Idx → Elt Ideal .f32) (i : S16384x1024.Idx) :
    Region1.quantArr (F := Ideal) P s z i = Cert.Spec.quantAt (P i) (s (ix2 0 0)) (z (ix2 0 0)) := by
  unfold Region1.quantArr Region1.pos
  refine (PayloadAt.quant_at s z _ _ _).trans ?_
  refine congrArg (fun v => Cert.Spec.quantAt v (s (ix2 0 0)) (z (ix2 0 0))) ?_
  unfold Region1.rowBlockP Region1.blk
  exact congrArg P (funext fun c => Fin.ext (by
    match c with
    | ⟨0, _⟩ => show 1024 * ((i 0).val / 1024) + (i 0).val % 1024 = (i 0).val; omega
    | ⟨1, _⟩ => rfl))

end Cert.KernelIdeal.Arrays

end
-- ==== Proof.RefTerms.lean ====
/-
  The reference program's results as named terms of its two arguments.

  The reference multiplies the keys by the transposed sketch, takes the row norms of the keys, the global minimum
  and maximum of the product, derives the scale and zero point from those two scalars and quantizes every entry of
  the product.  Each definition below is one of these stages, spelt with exactly the host operations the program
  applies, so that the program's run can be stated stage by stage without repeating a sub-term.
-/
import proofs.«127435_j61151744360781_2_alg».proof.Proof.Gen.ReferenceIdeal
import proofs.«127435_j61151744360781_2_alg».proof.Proof.Spec

noncomputable section

namespace Cert.ReferenceIdeal.Terms

open Cert.ReferenceIdeal Cert.ReferenceIdeal.Gen Idealize.ShloMosaic

variable {F : FTy → Type} [FloatOps F]

/-- The product of the keys with the transposed sketch. -/
def proj (X0 : FVec F S16384x4096 .f32) (X1 : FVec F S1024x4096 .f32) : FVec F S16384x1024 .f32 :=
  Host.dotGeneral dot_S16384x4096_S4096x1024_S16384x1024_1_0_0_1_n_n none X0
    (transpose S4096x1024 [1, 0] X1 transposes_S1024x4096_S4096x1024_1_0)

/-- The square root of each row's sum of squares. -/
def norms (X0 : FVec F S16384x4096 .f32) : FVec F S16384 .f32 :=
  Host.sqrt (Host.reduceAdd (mulf X0 X0) (constant S_ .f32 0x00000000#32) reducesTo_S16384x4096_S16384_d1 h_S_)

/-- The minimum of a projected array over both axes, from plus infinity. -/
def gmin (P : FVec F S16384x1024 .f32) : FVec F S_ .f32 :=
  Host.reduce FloatOps.minimumf P (constant S_ .f32 0x7F800000#32) reducesTo_S16384x1024_S_d0_1 h_S_

/-- The maximum of a projected array over both axes, from minus infinity. -/
def gmax (P : FVec F S16384x1024 .f32) : FVec F S_ .f32 :=
  Host.reduce FloatOps.maximumf P (constant S_ .f32 0xFF800000#32) reducesTo_S16384x1024_S_d0_1 h_S_

/-- Every entry of a projected array quantized with scale `s` and zero point `z`. -/
def quant (P : FVec F S16384x1024 .f32) (s z : FVec F S_ .f32) : FVec F S16384x1024 .f32 :=
  mulf (broadcastInDim S16384x1024 ![] bcast_S_S16384x1024 s)
    (subf
      (minimumf (broadcastInDim S16384x1024 ![] bcast_S_S16384x1024 (constant S_ .f32 0x41700000#32))
        (maximumf (broadcastInDim S16384x1024 ![] bcast_S_S16384x1024 (constant S_ .f32 0x00000000#32))
          (addf (Host.roundeven (Host.divf P (broadcastInDim S16384x1024 ![] bcast_S_S16384x1024 s)))
            (broadcastInDim S16384x1024 ![] bcast_S_S16384x1024 z))))
      (broadcastInDim S16384x1024 ![] bcast_S_S16384x1024 z))

end Cert.ReferenceIdeal.Terms

end
-- ==== Proof.RefAt.lean ====
/-
  The reference program's results read at an index, on the extended reals.

  At the ideal instance a float is an extended real and every operation is the exact one, so each stage of
  the reference has a closed form at an index:
    * the product of the keys with the transposed sketch at (r, p) is  ∑ d, X0 (r, d) * X1 (p, d);
    * the norm of row r is the square root of  ∑ d, X0 (r, d) * X0 (r, d);
    * a minimum (maximum) taken over every axis from plus (minus) infinity is the infimum (supremum) of the
      whole family of entries, because the initial value is the top (bottom) element and the fold runs
      over every index exactly once;
    * the quantization of the entry at i, with a rank-0 scale s and zero point z broadcast to every entry, is
      s * (min 15 (max 0 (roundeven (P i / s) + z)) - z).
  The contraction of the product runs over a one-axis index set, which is re-indexed by its one coordinate;
  the transposed sketch at (d, p) is the sketch at (p, d).
-/
import proofs.«127435_j61151744360781_2_alg».proof.Proof.RefTerms
import proofs.«127435_j61151744360781_2_alg».proof.Proof.Lattice
import Idealize.ShloMosaic.PureOps.Ideal.Laws
import Idealize.ShloMosaic.Lib.ValueIdx
import Idealize.ShloMosaic.Lib.Pipeline.Value

noncomputable section

namespace Cert.ReferenceIdeal.RefAt

open Cert.ReferenceIdeal Cert.ReferenceIdeal.Gen Cert.ReferenceIdeal.Terms Idealize.ShloMosaic Idealize.ShloMosaic.ValueIdx

/-- The left operand's row coordinate at output index `i` is the output's row. -/
theorem lhs_0 (i : S16384x1024.Idx) (q : dot_S16384x4096_S4096x1024_S16384x1024_1_0_0_1_n_n.contr.Idx) :
    (dot_S16384x4096_S4096x1024_S16384x1024_1_0_0_1_n_n.lhsIdx i q 0).val = (i 0).val := by
  unfold DotDims.lhsIdx
  rw [dif_neg (show ¬(0 : Fin S16384x4096.rank) ∈ dot_S16384x4096_S4096x1024_S16384x1024_1_0_0_1_n_n.lhsBatch by decide), dif_pos (show (0 : Fin S16384x4096.rank) ∈ dot_S16384x4096_S4096x1024_S16384x1024_1_0_0_1_n_n.lhsNonContracting by decide)]
  rfl

/-- The left operand's column coordinate is the contracted coordinate. -/
theorem lhs_1 (i : S16384x1024.Idx) (q : dot_S16384x4096_S4096x1024_S16384x1024_1_0_0_1_n_n.contr.Idx) :
    (dot_S16384x4096_S4096x1024_S16384x1024_1_0_0_1_n_n.lhsIdx i q 1).val = (q ⟨0, by decide⟩).val :=
  dot_S16384x4096_S4096x1024_S16384x1024_1_0_0_1_n_n.lhsIdx_val_of_single rfl i q

/-- The right operand's row coordinate is the contracted coordinate. -/
theorem rhs_0 (i : S16384x1024.Idx) (q : dot_S16384x4096_S4096x1024_S16384x1024_1_0_0_1_n_n.contr.Idx) :
    (dot_S16384x4096_S4096x1024_S16384x1024_1_0_0_1_n_n.rhsIdx i q 0).val = (q ⟨0, by decide⟩).val :=
  dot_S16384x4096_S4096x1024_S16384x1024_1_0_0_1_n_n.rhsIdx_val_of_single rfl i q

/-- The right operand's column coordinate at output index `i` is the output's column. -/
theorem rhs_1 (i : S16384x1024.Idx) (q : dot_S16384x4096_S4096x1024_S16384x1024_1_0_0_1_n_n.contr.Idx) :
    (dot_S16384x4096_S4096x1024_S16384x1024_1_0_0_1_n_n.rhsIdx i q 1).val = (i 1).val := by
  unfold DotDims.rhsIdx
  rw [dif_neg (show ¬(1 : Fin S4096x1024.rank) ∈ dot_S16384x4096_S4096x1024_S16384x1024_1_0_0_1_n_n.rhsBatch by decide), dif_pos (show (1 : Fin S4096x1024.rank) ∈ dot_S16384x4096_S4096x1024_S16384x1024_1_0_0_1_n_n.rhsNonContracting by decide)]
  rfl

/-- The product of the keys with the transposed sketch at (r, p): the sum over the contracted coordinate. -/
theorem proj_at (X0 : FVec Ideal S16384x4096 .f32) (X1 : FVec Ideal S1024x4096 .f32) (r : Fin 16384) (p : Fin 1024) :
    proj (F := Ideal) X0 X1 (ix2 r p) = ∑ d : Fin 4096, X0 (ix2 r d) * X1 (ix2 p d) := by
  unfold proj
  generalize hy : transpose S4096x1024 [1, 0] X1 transposes_S1024x4096_S4096x1024_1_0 = y0
  simp only [Host.dotGeneral]
  rw [Ideal.dotGeneral_apply, ← Equiv.sum_comp (ValueIdx.contrEquiv1 dot_S16384x4096_S4096x1024_S16384x1024_1_0_0_1_n_n 4096 rfl rfl).symm]
  refine Finset.sum_congr rfl fun k _ => ?_
  have hk := ValueIdx.contrEquiv1_symm_val dot_S16384x4096_S4096x1024_S16384x1024_1_0_0_1_n_n 4096 rfl rfl k
  have el : dot_S16384x4096_S4096x1024_S16384x1024_1_0_0_1_n_n.lhsIdx (ix2 r p) ((ValueIdx.contrEquiv1 dot_S16384x4096_S4096x1024_S16384x1024_1_0_0_1_n_n 4096 rfl rfl).symm k) = ix2 r k := funext fun a => Fin.ext (by
    match a with
    | ⟨0, _⟩ => exact lhs_0 _ _
    | ⟨1, _⟩ => exact (lhs_1 _ _).trans hk)
  have er : dot_S16384x4096_S4096x1024_S16384x1024_1_0_0_1_n_n.rhsIdx (ix2 r p) ((ValueIdx.contrEquiv1 dot_S16384x4096_S4096x1024_S16384x1024_1_0_0_1_n_n 4096 rfl rfl).symm k) = ix2 k p := funext fun a => Fin.ext (by
    match a with
    | ⟨0, _⟩ => exact (rhs_0 _ _).trans hk
    | ⟨1, _⟩ => exact rhs_1 _ _)
  rw [el, er, ← hy]
  refine congrArg (X0 (ix2 r k) * ·) ?_
  exact transpose_apply [1, 0] X1 transposes_S1024x4096_S4096x1024_1_0 (ix2 k p) (ix2 p k) (fun b => match b with
    | ⟨0, _⟩ => rfl
    | ⟨1, _⟩ => rfl)

/-- A rank-0 array broadcast to every entry reads its one element. -/
theorem bcast_at (y : FVec Ideal S_ .f32) (i : S16384x1024.Idx) :
    broadcastInDim S16384x1024 ![] bcast_S_S16384x1024 y i = y ix0 :=
  broadcastInDim_apply _ bcast_S_S16384x1024 y i ix0 (fun a => a.elim0)

/-- Every entry quantized with a broadcast scale and zero point is the per-entry formula. -/
theorem quant_at (P : FVec Ideal S16384x1024 .f32) (s z : FVec Ideal S_ .f32) (i : S16384x1024.Idx) :
    quant (F := Ideal) P s z i = Cert.Spec.quantAt (P i) (s ix0) (z ix0) := by
  unfold quant Cert.Spec.quantAt
  rw [mulf_apply, subf_apply, minimumf_apply, maximumf_apply, addf_apply, bcast_at, bcast_at, bcast_at, bcast_at]
  show s ix0 * (min (Ideal.ofBits .f32 0x41700000#32) (max (Ideal.ofBits .f32 0x00000000#32)
      (Ideal.liftRound Ideal.roundHalfEven (Ideal.div (P i) (broadcastInDim S16384x1024 ![] bcast_S_S16384x1024 s i)) + z ix0)) - z ix0) = _
  rw [bcast_at]

/-- Plus infinity's word reads the top element. -/
theorem ofBits_pinf : Ideal.ofBits .f32 0x7F800000#32 = (⊤ : EReal) := by simp [Ideal.ofBits, Ideal.ieee]

/-- Minus infinity's word reads the bottom element. -/
theorem ofBits_ninf : Ideal.ofBits .f32 0xFF800000#32 = (⊥ : EReal) := by simp [Ideal.ofBits, Ideal.ieee]

/-- Every index drops to the one index of a rank-0 shape, so the indices that drop to it are all of them. -/
theorem filter_drop_S0 {s : Shape} {axes : List (Fin s.rank)} (h : s.ReducesTo axes Cert.Spec.S0) (j : Cert.Spec.S0.Idx) :
    (Finset.univ.filter fun i => h.drop i = j) = Finset.univ :=
  Finset.filter_true_of_mem fun i _ => funext fun a => a.elim0

/-- A minimum over every axis from plus infinity is the infimum of all the entries. -/
theorem hostMin_eq {s : Shape} {axes : List (Fin s.rank)} (x : FVec Ideal s .f32) (h : s.ReducesTo axes Cert.Spec.S0) (hu : 0 < Cert.Spec.S0.numel) (j : Cert.Spec.S0.Idx) :
    Host.reduce FloatOps.minimumf x (constant (F := Ideal) Cert.Spec.S0 .f32 0x7F800000#32) h hu j = Finset.univ.inf x := by
  rw [Host.reduce_eq_fold, filter_drop_S0 h j]
  show Finset.univ.fold min (Ideal.ofBits .f32 0x7F800000#32) x = Finset.univ.inf x
  rw [ofBits_pinf]
  exact Cert.Lattice.fold_min_top Finset.univ x

/-- A maximum over every axis from minus infinity is the supremum of all the entries. -/
theorem hostMax_eq {s : Shape} {axes : List (Fin s.rank)} (x : FVec Ideal s .f32) (h : s.ReducesTo axes Cert.Spec.S0) (hu : 0 < Cert.Spec.S0.numel) (j : Cert.Spec.S0.Idx) :
    Host.reduce FloatOps.maximumf x (constant (F := Ideal) Cert.Spec.S0 .f32 0xFF800000#32) h hu j = Finset.univ.sup x := by
  rw [Host.reduce_eq_fold, filter_drop_S0 h j]
  show Finset.univ.fold max (Ideal.ofBits .f32 0xFF800000#32) x = Finset.univ.sup x
  rw [ofBits_ninf]
  exact Cert.Lattice.fold_max_bot Finset.univ x

/-- The reference's global minimum is the infimum of the projected array. -/
theorem gmin_eq (P : FVec Ideal S16384x1024 .f32) (j : S_.Idx) : gmin (F := Ideal) P j = Finset.univ.inf P := by
  unfold gmin
  exact hostMin_eq P reducesTo_S16384x1024_S_d0_1 h_S_ j

/-- The reference's global maximum is the supremum of the projected array. -/
theorem gmax_eq (P : FVec Ideal S16384x1024 .f32) (j : S_.Idx) : gmax (F := Ideal) P j = Finset.univ.sup P := by
  unfold gmax
  exact hostMax_eq P reducesTo_S16384x1024_S_d0_1 h_S_ j

/-- A square root taken entry by entry reads the square root of the entry. -/
theorem sqrt_at {s : Shape} (y : FVec Ideal s .f32) (i : s.Idx) : Host.sqrt y i = Ideal.sqrt (y i) := rfl

/-- A sum along each row from zero, read at row r: the sum of the row's entries. -/
theorem rowsum_at (y0 : FVec Ideal S16384x4096 .f32) (r : Fin 16384) :
    Host.reduceAdd y0 (constant (F := Ideal) S_ .f32 0x00000000#32) reducesTo_S16384x4096_S16384_d1 h_S_ (ix1 r)
      = ∑ d : Fin 4096, y0 (ix2 r d) := by
  simp only [Host.reduceAdd, Ideal.hostReduceAdd_def]
  rw [Ideal.hostReduceAdd_single reducesTo_S16384x4096_S16384_d1 (by decide)]
  have h0 : constant (F := Ideal) S_ .f32 0x00000000#32 (Shape.Idx.first h_S_) = (0 : EReal) := Ideal.ofBits_zero_f32
  rw [h0, zero_add]
  refine Finset.sum_congr rfl fun k _ => ?_
  exact congrArg y0 (funext fun a => Fin.ext (by match a with | ⟨0, _⟩ => rfl | ⟨1, _⟩ => rfl))

/-- The norm of row r: the square root of the row's sum of squares. -/
theorem norms_at (X0 : FVec Ideal S16384x4096 .f32) (r : Fin 16384) :
    norms (F := Ideal) X0 (ix1 r) = Ideal.sqrt (∑ d : Fin 4096, X0 (ix2 r d) * X0 (ix2 r d)) := by
  unfold norms
  refine (sqrt_at _ _).trans (congrArg Ideal.sqrt ?_)
  exact rowsum_at (mulf X0 X0) r

end Cert.ReferenceIdeal.RefAt

end
-- ==== Proof.BridgeProj.lean ====
/-
  The kernel's projected array and extreme values against the reference's, over the extended reals.

  * The kernel narrows the sketch before it multiplies; over the extended reals the narrowing is the identity, so
    both programs' projected arrays are, at `(r, p)`, the same sum `∑ d, A (r, d) * S (p, d)`: the two arrays are equal.
  * The kernel takes the minimum of its array of per-block minima, from plus infinity: the infimum of the per-block
    minima, which is the infimum of the whole projected array; the reference takes the minimum of the projected array
    over both axes from plus infinity: the same infimum.  Dually for the maxima.  Hence `max |min| |max|` agrees.
  * A cast of a scalar array to its own shape is the identity.
-/
import proofs.«127435_j61151744360781_2_alg».proof.Proof.Region0
import proofs.«127435_j61151744360781_2_alg».proof.Proof.KernelArrays
import proofs.«127435_j61151744360781_2_alg».proof.Proof.RefTerms
import proofs.«127435_j61151744360781_2_alg».proof.Proof.RefAt
import proofs.«127435_j61151744360781_2_alg».proof.Proof.Spec
import Idealize.ShloMosaic.Lib.Pipeline.Value
import Idealize.ShloMosaic.Lib.ValueIdx

noncomputable section

namespace Cert.Bridge

open Cert.KernelIdeal Cert.KernelIdeal.Gen Idealize.ShloMosaic Idealize.ShloMosaic.ValueIdx

/-- The two programs' projected arrays are equal: at `(r, p)` both are `∑ d, A (r, d) * S (p, d)`. -/
theorem proj_eq (A : FVec Ideal S16384x4096 .f32) (S : FVec Ideal S1024x4096 .f32) :
    Region0.projArr (F := Ideal) A (truncf .bf16 S bitsLt_bf16_f32) = Cert.ReferenceIdeal.Terms.proj (F := Ideal) A S := by
  funext i
  obtain ⟨r, p, rfl⟩ : ∃ (r : Fin 16384) (p : Fin 1024), i = ix2 r p := ⟨i 0, i 1, eq_ix2 i⟩
  refine (Arrays.projArr_ix A _ r p).trans ?_
  exact (Cert.ReferenceIdeal.RefAt.proj_at A S r p).symm

/-- The minimum of the per-block minima is the reference's global minimum of the projected array. -/
theorem min_eq (A : FVec Ideal S16384x4096 .f32) (S : FVec Ideal S1024x4096 .f32) :
    Host.reduce FloatOps.minimumf (Region0.minArr (F := Ideal) A (truncf .bf16 S bitsLt_bf16_f32)) (constant (F := Ideal) S_ .f32 0x7F800000#32) reducesTo_S512x128_S_d0_1 h_S_
      = Cert.ReferenceIdeal.Terms.gmin (Cert.ReferenceIdeal.Terms.proj (F := Ideal) A S) := by
  funext j
  refine (Cert.ReferenceIdeal.RefAt.hostMin_eq _ reducesTo_S512x128_S_d0_1 h_S_ j).trans ?_
  refine (Arrays.minArr_inf A _).trans ?_
  rw [proj_eq]
  exact (Cert.ReferenceIdeal.RefAt.gmin_eq _ j).symm

/-- The maximum of the per-block maxima is the reference's global maximum of the projected array. -/
theorem max_eq (A : FVec Ideal S16384x4096 .f32) (S : FVec Ideal S1024x4096 .f32) :
    Host.reduce FloatOps.maximumf (Region0.maxArr (F := Ideal) A (truncf .bf16 S bitsLt_bf16_f32)) (constant (F := Ideal) S_ .f32 0xFF800000#32) reducesTo_S512x128_S_d0_1 h_S_
      = Cert.ReferenceIdeal.Terms.gmax (Cert.ReferenceIdeal.Terms.proj (F := Ideal) A S) := by
  funext j
  refine (Cert.ReferenceIdeal.RefAt.hostMax_eq _ reducesTo_S512x128_S_d0_1 h_S_ j).trans ?_
  refine (Arrays.maxArr_sup A _).trans ?_
  rw [proj_eq]
  exact (Cert.ReferenceIdeal.RefAt.gmax_eq _ j).symm

/-- The larger of the two extreme values' magnitudes is the same in both programs. -/
theorem M_eq (A : FVec Ideal S16384x4096 .f32) (S : FVec Ideal S1024x4096 .f32) :
    Cert.Spec.absMax (F := Ideal)
        (Host.reduce FloatOps.minimumf (Region0.minArr (F := Ideal) A (truncf .bf16 S bitsLt_bf16_f32)) (constant (F := Ideal) S_ .f32 0x7F800000#32) reducesTo_S512x128_S_d0_1 h_S_)
        (Host.reduce FloatOps.maximumf (Region0.maxArr (F := Ideal) A (truncf .bf16 S bitsLt_bf16_f32)) (constant (F := Ideal) S_ .f32 0xFF800000#32) reducesTo_S512x128_S_d0_1 h_S_)
      = Cert.Spec.absMax (F := Ideal) (Cert.ReferenceIdeal.Terms.gmin (Cert.ReferenceIdeal.Terms.proj (F := Ideal) A S)) (Cert.ReferenceIdeal.Terms.gmax (Cert.ReferenceIdeal.Terms.proj (F := Ideal) A S)) :=
  congrArg₂ (Cert.Spec.absMax (F := Ideal)) (min_eq A S) (max_eq A S)

/-- A cast of a scalar array to its own shape is the identity. -/
theorem scalar_cast (s : FVec Ideal S_ .f32) : shapeCast S_ s shapeCasts_S_S_ = s :=
  shapeCast_self s shapeCasts_S_S_

end Cert.Bridge

end
-- ==== Proof.BridgeQuant.lean ====
/-
  The kernel's norms and quantized array are the reference's.

  The kernel keeps the row norms as a 16384 x 1 column and casts it to a vector of 16384 entries; entry r of the
  vector is the column's entry (r, 0), because both sit at row-major position r.  That entry is the square root of
  the sum of the squares along row r of the keys, which is the reference's norm of row r.

  The kernel hands the scale and the zero point to its second region as 1 x 1 arrays cast from rank-0 arrays; the
  one entry (0, 0) of such a cast is the rank-0 array's one entry, both at row-major position 0.  The region's
  quantized array at an index is the per-entry formula  s * (min 15 (max 0 (roundeven (v / s) + z)) - z)  at the
  projected entry v there, and so is the reference's, with the same scale s and zero point z.
-/
import proofs.«127435_j61151744360781_2_alg».proof.Proof.Region0
import proofs.«127435_j61151744360781_2_alg».proof.Proof.Region1
import proofs.«127435_j61151744360781_2_alg».proof.Proof.KernelArrays
import proofs.«127435_j61151744360781_2_alg».proof.Proof.RefTerms
import proofs.«127435_j61151744360781_2_alg».proof.Proof.RefAt
import proofs.«127435_j61151744360781_2_alg».proof.Proof.Spec
import Idealize.ShloMosaic.Lib.Pipeline.Value
import Idealize.ShloMosaic.Lib.ValueIdx

noncomputable section

namespace Cert.Bridge

open Cert.KernelIdeal Cert.KernelIdeal.Gen Idealize.ShloMosaic Idealize.ShloMosaic.ValueIdx

/-- A 16384 x 1 column cast to a vector reads, at r, the column's entry (r, 0). -/
theorem castCol_at {α : Type} (x : S16384x1.Idx → α) (r : Fin 16384) :
    shapeCast S16384 x shapeCasts_S16384x1_S16384 (ix1 r) = x (ix2 r (0 : Fin 1)) :=
  shapeCast_apply x shapeCasts_S16384x1_S16384 (ix1 r) (ix2 r (0 : Fin 1)) (by
    rw [Shape.rowMajor_val_two, Shape.rowMajor_val_one]
    show r.val * 1 + 0 = r.val
    omega)

/-- A rank-0 array cast to 1 x 1 reads, at (0, 0), the array's one entry. -/
theorem cast11_at {α : Type} (y : S_.Idx → α) :
    shapeCast S1x1 y shapeCasts_S_S1x1 (ix2 (0 : Fin 1) (0 : Fin 1)) = y ix0 :=
  shapeCast_apply y shapeCasts_S_S1x1 (ix2 (0 : Fin 1) (0 : Fin 1)) ix0 (by
    rw [Shape.rowMajor_val_two]
    show (Shape.rowMajorPi _ _).val = 0 * 1 + 0
    rw [Shape.rowMajorPi_zero])

/-- The kernel's norms column, cast to a vector, is the reference's vector of row norms. -/
theorem norms_eq (A : FVec Ideal S16384x4096 .f32) (S' : S1024x4096.Idx → Elt Ideal .bf16) :
    shapeCast S16384 (Region0.normArr (F := Ideal) A S') shapeCasts_S16384x1_S16384 = Cert.ReferenceIdeal.Terms.norms (F := Ideal) A := by
  funext i
  obtain ⟨r, rfl⟩ : ∃ r : Fin 16384, i = ix1 r := ⟨i 0, eq_ix1 i⟩
  refine (castCol_at _ r).trans ?_
  refine (Cert.KernelIdeal.Arrays.normArr_ix A S' r 0).trans ?_
  exact (Cert.ReferenceIdeal.RefAt.norms_at A r).symm

/-- The kernel's quantized array, from a scale and a zero point cast to 1 x 1, is the reference's. -/
theorem quant_eq (P : FVec Ideal S16384x1024 .f32) (s z : FVec Ideal S_ .f32) :
    Region1.quantArr (F := Ideal) P (shapeCast S1x1 s shapeCasts_S_S1x1) (shapeCast S1x1 z shapeCasts_S_S1x1) = Cert.ReferenceIdeal.Terms.quant (F := Ideal) P s z := by
  funext i
  refine (Cert.KernelIdeal.Arrays.quantArr_ix P _ _ i).trans ?_
  rw [cast11_at s, cast11_at z]
  exact (Cert.ReferenceIdeal.RefAt.quant_at P s z i).symm

end Cert.Bridge

end
-- ==== Proof.RefM.lean ====
/-
  M of the reference: the larger absolute value of the global minimum and the global maximum of the product of the
  keys with the transposed sketch.  The scale and the zero point are functions of M alone.
-/
import proofs.«127435_j61151744360781_2_alg».proof.Proof.RefTerms

noncomputable section

namespace Cert.ReferenceIdeal.Terms

open Cert.ReferenceIdeal Cert.ReferenceIdeal.Gen Idealize.ShloMosaic

variable {F : FTy → Type} [FloatOps F]

/-- `max |min| |max|` of the product. -/
def refM (X0 : FVec F S16384x4096 .f32) (X1 : FVec F S1024x4096 .f32) : FVec F S_ .f32 :=
  Cert.Spec.absMax (gmin (proj X0 X1)) (gmax (proj X0 X1))

end Cert.ReferenceIdeal.Terms

end
-- ==== Proof.KernelValue.lean ====
/-
  The idealized kernel's run, with each result stated as the reference's own term of the two arguments.

  The run ends with the four result buffers at the last valuation of the fold through the program; along the fold
  these are: the quantized array built block by block from the projected array, the scale and the zero point; the
  norms column reshaped; the scale; the zero point.  Index by index, at the extended reals, the projected array is
  the product of the keys with the transposed sketch (narrowing the sketch changes nothing there); the minimum of the
  per-point minima is the global minimum and likewise for the maxima, so M, and with it the scale and the zero point,
  are the reference's; the norms column is the reference's norms; and each entry is quantized by the same formula.
-/
import proofs.«127435_j61151744360781_2_alg».proof.Proof.KernelRun
import proofs.«127435_j61151744360781_2_alg».proof.Proof.KernelStages
import proofs.«127435_j61151744360781_2_alg».proof.Proof.BridgeProj
import proofs.«127435_j61151744360781_2_alg».proof.Proof.BridgeQuant
import proofs.«127435_j61151744360781_2_alg».proof.Proof.RefM

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The kernel's M is the reference's. -/
theorem kM_eq (A : FVec Ideal S16384x4096 .f32) (S : FVec Ideal S1024x4096 .f32) :
    Stages.kM (F := Ideal) A (truncf .bf16 S bitsLt_bf16_f32) = Cert.ReferenceIdeal.Terms.refM (F := Ideal) A S :=
  Cert.Bridge.M_eq A S

/-- Every weakly fair execution of the idealized kernel terminates without a fault with: the quantized product of the
    keys with the transposed sketch, the keys' row norms, the scale and the zero point — each the reference's term of
    the two arguments — and the arguments unchanged. -/
theorem run : θ_run defs (onTc (τ := τ) (main (F := Ideal))) ⟨m, fun _ => 0, ρ⟩ fun r => ∀ c : Dev nD,
      r.2.mem ((c.tc : Thread nD τ).loc main_v17) = Cert.ReferenceIdeal.Terms.quant (Cert.ReferenceIdeal.Terms.proj (F := Ideal) (m ((c.tc : Thread nD τ).loc main_arg0)) (m ((c.tc : Thread nD τ).loc main_arg1)))
          (Cert.Spec.scaleM (Cert.ReferenceIdeal.Terms.refM (F := Ideal) (m ((c.tc : Thread nD τ).loc main_arg0)) (m ((c.tc : Thread nD τ).loc main_arg1))))
          (Cert.Spec.zeroM (Cert.ReferenceIdeal.Terms.refM (F := Ideal) (m ((c.tc : Thread nD τ).loc main_arg0)) (m ((c.tc : Thread nD τ).loc main_arg1))))
      ∧ r.2.mem ((c.tc : Thread nD τ).loc main_v18) = Cert.ReferenceIdeal.Terms.norms (F := Ideal) (m ((c.tc : Thread nD τ).loc main_arg0))
      ∧ r.2.mem ((c.tc : Thread nD τ).loc main_v19) = Cert.Spec.scaleM (Cert.ReferenceIdeal.Terms.refM (F := Ideal) (m ((c.tc : Thread nD τ).loc main_arg0)) (m ((c.tc : Thread nD τ).loc main_arg1)))
      ∧ r.2.mem ((c.tc : Thread nD τ).loc main_v20) = Cert.Spec.zeroM (Cert.ReferenceIdeal.Terms.refM (F := Ideal) (m ((c.tc : Thread nD τ).loc main_arg0)) (m ((c.tc : Thread nD τ).loc main_arg1)))
      ∧ r.2.mem ((c.tc : Thread nD τ).loc main_arg0) = (m ((c.tc : Thread nD τ).loc main_arg0))
      ∧ r.2.mem ((c.tc : Thread nD τ).loc main_arg1) = (m ((c.tc : Thread nD τ).loc main_arg1)) :=
  (θ_run defs _ _).mono (fun r h c => by
      obtain ⟨h0, h1, h2, h3, h4, h5⟩ := h c
      refine ⟨h0.trans ?_, h1.trans ?_, h2.trans ?_, h3.trans ?_, h4, h5⟩
      · rw [Stages.result_quant, kM_eq, Cert.Bridge.proj_eq, Cert.Bridge.quant_eq]
      · rw [Stages.result_norms, Cert.Bridge.norms_eq]
      · rw [Stages.result_scale, kM_eq, Cert.Bridge.scalar_cast]
      · rw [Stages.result_zero, kM_eq, Cert.Bridge.scalar_cast])
    (Cert.KernelIdeal.ValueRun.run_final (F := Ideal) m ρ)

end Cert.KernelIdeal.Value

end
-- ==== Proof.RefOps.lean ====
/-
  The reference program's 41 host operations as a list, cut in four stages.

  The reference is a straight line of host operations: (1) the product of the keys with the transposed sketch and the
  row norms; (2) the global minimum and maximum of the product and M, the larger of their absolute values; (3) the
  scale and the zero point from M; (4) the quantized product.  The program is the sequence of the whole list, and
  the whole list is the four stages one after another.
-/
import proofs.«127435_j61151744360781_2_alg».proof.Proof.Gen.ReferenceIdeal
import proofs.«127435_j61151744360781_2_alg».proof.Proof.RefTerms
import proofs.«127435_j61151744360781_2_alg».proof.Proof.ScalarChain
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Running one line after another is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stage 1: the product and the row norms. -/
abbrev ops1 : List (HloOp τ sig (Elt F)) :=
  [ unary main_arg1 main_v0 ((transpose S4096x1024 [1, 0] · transposes_S1024x4096_S4096x1024_1_0) : (⟨S1024x4096, .f32⟩ : BufTy).Contents (Elt F) → (⟨S4096x1024, .f32⟩ : BufTy).Contents (Elt F)),
    binary main_arg0 main_v0 main_v1 ((fun l r => Host.dotGeneral dot_S16384x4096_S4096x1024_S16384x1024_1_0_0_1_n_n none l r) : (⟨S16384x4096, .f32⟩ : BufTy).Contents (Elt F) → (⟨S4096x1024, .f32⟩ : BufTy).Contents (Elt F) → (⟨S16384x1024, .f32⟩ : BufTy).Contents (Elt F)),
    TRef.binary (TRef.of (T := ⟨S16384x4096, .f32⟩) main_arg0) (TRef.of (T := ⟨S16384x4096, .f32⟩) main_arg0) (TRef.of (T := ⟨S16384x4096, .f32⟩) main_call0_v0) mulf,
    TRef.nullary (TRef.of (T := ⟨S_, .f32⟩) main_call0_cst) (constant S_ .f32 0x00000000#32),
    TRef.binary (TRef.of (T := ⟨S16384x4096, .f32⟩) main_call0_v0) (TRef.of (T := ⟨S_, .f32⟩) main_call0_cst) (TRef.of (T := ⟨S16384, .f32⟩) main_call0_v1) (fun x v => Host.reduceAdd x v reducesTo_S16384x4096_S16384_d1 h_S_),
    TRef.unary (TRef.of (T := ⟨S16384, .f32⟩) main_call0_v1) (TRef.of (T := ⟨S16384, .f32⟩) main_v2) Host.sqrt ]
/-- Stage 2: the global minimum and maximum and the larger of their absolute values. -/
abbrev ops2 : List (HloOp τ sig (Elt F)) :=
  [ nullary main_cst (constant S_ .f32 0x7F800000#32),
    binary main_v1 main_cst main_v3 ((fun x v => Host.reduce FloatOps.minimumf x v reducesTo_S16384x1024_S_d0_1 h_S_) : (⟨S16384x1024, .f32⟩ : BufTy).Contents (Elt F) → (⟨S_, .f32⟩ : BufTy).Contents (Elt F) → (⟨S_, .f32⟩ : BufTy).Contents (Elt F)),
    unary main_v3 main_v4 (Host.absf : (⟨S_, .f32⟩ : BufTy).Contents (Elt F) → (⟨S_, .f32⟩ : BufTy).Contents (Elt F)),
    nullary main_cst_0 (constant S_ .f32 0xFF800000#32),
    binary main_v1 main_cst_0 main_v5 ((fun x v => Host.reduce FloatOps.maximumf x v reducesTo_S16384x1024_S_d0_1 h_S_) : (⟨S16384x1024, .f32⟩ : BufTy).Contents (Elt F) → (⟨S_, .f32⟩ : BufTy).Contents (Elt F) → (⟨S_, .f32⟩ : BufTy).Contents (Elt F)),
    unary main_v5 main_v6 (Host.absf : (⟨S_, .f32⟩ : BufTy).Contents (Elt F) → (⟨S_, .f32⟩ : BufTy).Contents (Elt F)),
    binary main_v4 main_v6 main_v7 (maximumf : (⟨S_, .f32⟩ : BufTy).Contents (Elt F) → (⟨S_, .f32⟩ : BufTy).Contents (Elt F) → (⟨S_, .f32⟩ : BufTy).Contents (Elt F)) ]
/-- Stage 3: the scale and the zero point. -/
abbrev ops3 : List (HloOp τ sig (Elt F)) :=
  [ nullary main_cst_1 (constant S_ .f32 0x00000000#32),
    binary main_v7 main_cst_1 main_v8 (cmpf .oeq : (⟨S_, .f32⟩ : BufTy).Contents (Elt F) → (⟨S_, .f32⟩ : BufTy).Contents (Elt F) → (⟨S_, .i1⟩ : BufTy).Contents (Elt F)),
    nullary main_cst_2 (constant S_ .f32 0x3F800000#32),
    TRef.ternary (TRef.of (T := ⟨S_, .i1⟩) main_v8) (TRef.of (T := ⟨S_, .f32⟩) main_cst_2) (TRef.of (T := ⟨S_, .f32⟩) main_v7) (TRef.of (T := ⟨S_, .f32⟩) main_v9) select,
    unary main_v9 main_v10 (Host.negf : (⟨S_, .f32⟩ : BufTy).Contents (Elt F) → (⟨S_, .f32⟩ : BufTy).Contents (Elt F)),
    binary main_v9 main_v10 main_v11 (subf : (⟨S_, .f32⟩ : BufTy).Contents (Elt F) → (⟨S_, .f32⟩ : BufTy).Contents (Elt F) → (⟨S_, .f32⟩ : BufTy).Contents (Elt F)),
    nullary main_cst_3 (constant S_ .f32 0x41700000#32),
    binary main_v11 main_cst_3 main_v12 (Host.divf : (⟨S_, .f32⟩ : BufTy).Contents (Elt F) → (⟨S_, .f32⟩ : BufTy).Contents (Elt F) → (⟨S_, .f32⟩ : BufTy).Contents (Elt F)),
    unary main_v10 main_v13 (Host.negf : (⟨S_, .f32⟩ : BufTy).Contents (Elt F) → (⟨S_, .f32⟩ : BufTy).Contents (Elt F)),
    binary main_v13 main_v12 main_v14 (Host.divf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v14) (TRef.of (T := ⟨S_, .f32⟩) main_v15) Host.roundeven ]
/-- Stage 4: the quantized product. -/
abbrev ops4 : List (HloOp τ sig (Elt F)) :=
  [ unary main_v12 main_v16 (broadcastInDim S16384x1024 ![] bcast_S_S16384x1024 : (⟨S_, .f32⟩ : BufTy).Contents (Elt F) → (⟨S16384x1024, .f32⟩ : BufTy).Contents (Elt F)),
    binary main_v1 main_v16 main_v17 (Host.divf : (⟨S16384x1024, .f32⟩ : BufTy).Contents (Elt F) → (⟨S16384x1024, .f32⟩ : BufTy).Contents (Elt F) → (⟨S16384x1024, .f32⟩ : BufTy).Contents (Elt F)),
    TRef.unary (TRef.of (T := ⟨S16384x1024, .f32⟩) main_v17) (TRef.of (T := ⟨S16384x1024, .f32⟩) main_v18) Host.roundeven,
    unary main_v15 main_v19 (broadcastInDim S16384x1024 ![] bcast_S_S16384x1024 : (⟨S_, .f32⟩ : BufTy).Contents (Elt F) → (⟨S16384x1024, .f32⟩ : BufTy).Contents (Elt F)),
    binary main_v18 main_v19 main_v20 (addf : (⟨S16384x1024, .f32⟩ : BufTy).Contents (Elt F) → (⟨S16384x1024, .f32⟩ : BufTy).Contents (Elt F) → (⟨S16384x1024, .f32⟩ : BufTy).Contents (Elt F)),
    nullary main_cst_4 (constant S_ .f32 0x00000000#32),
    nullary main_cst_5 (constant S_ .f32 0x41700000#32),
    TRef.unary (TRef.of (T := ⟨S_, .f32⟩) main_cst_4) (TRef.of (T := ⟨S_, .f32⟩) main_call4_v0) id,
    TRef.unary (TRef.of (T := ⟨S_, .f32⟩) main_call4_v0) (TRef.of (T := ⟨S16384x1024, .f32⟩) main_call4_v1) (broadcastInDim S16384x1024 ![] bcast_S_S16384x1024),
    TRef.binary (TRef.of (T := ⟨S16384x1024, .f32⟩) main_call4_v1) (TRef.of (T := ⟨S16384x1024, .f32⟩) main_v20) (TRef.of (T := ⟨S16384x1024, .f32⟩) main_call4_v2) maximumf,
    TRef.unary (TRef.of (T := ⟨S_, .f32⟩) main_cst_5) (TRef.of (T := ⟨S_, .f32⟩) main_call4_v3) id,
    TRef.unary (TRef.of (T := ⟨S_, .f32⟩) main_call4_v3) (TRef.of (T := ⟨S16384x1024, .f32⟩) main_call4_v4) (broadcastInDim S16384x1024 ![] bcast_S_S16384x1024),
    TRef.binary (TRef.of (T := ⟨S16384x1024, .f32⟩) main_call4_v4) (TRef.of (T := ⟨S16384x1024, .f32⟩) main_call4_v2) (TRef.of (T := ⟨S16384x1024, .f32⟩) main_v21) minimumf,
    unary main_v15 main_v22 (broadcastInDim S16384x1024 ![] bcast_S_S16384x1024 : (⟨S_, .f32⟩ : BufTy).Contents (Elt F) → (⟨S16384x1024, .f32⟩ : BufTy).Contents (Elt F)),
    binary main_v21 main_v22 main_v23 (subf : (⟨S16384x1024, .f32⟩ : BufTy).Contents (Elt F) → (⟨S16384x1024, .f32⟩ : BufTy).Contents (Elt F) → (⟨S16384x1024, .f32⟩ : BufTy).Contents (Elt F)),
    unary main_v12 main_v24 (broadcastInDim S16384x1024 ![] bcast_S_S16384x1024 : (⟨S_, .f32⟩ : BufTy).Contents (Elt F) → (⟨S16384x1024, .f32⟩ : BufTy).Contents (Elt F)),
    binary main_v24 main_v23 main_v25 (mulf : (⟨S16384x1024, .f32⟩ : BufTy).Contents (Elt F) → (⟨S16384x1024, .f32⟩ : BufTy).Contents (Elt F) → (⟨S16384x1024, .f32⟩ : BufTy).Contents (Elt F)) ]
/-- The program's 41 operations, in order. -/
abbrev ops : List (HloOp τ sig (Elt F)) :=
  [ unary main_arg1 main_v0 ((transpose S4096x1024 [1, 0] · transposes_S1024x4096_S4096x1024_1_0) : (⟨S1024x4096, .f32⟩ : BufTy).Contents (Elt F) → (⟨S4096x1024, .f32⟩ : BufTy).Contents (Elt F)),
    binary main_arg0 main_v0 main_v1 ((fun l r => Host.dotGeneral dot_S16384x4096_S4096x1024_S16384x1024_1_0_0_1_n_n none l r) : (⟨S16384x4096, .f32⟩ : BufTy).Contents (Elt F) → (⟨S4096x1024, .f32⟩ : BufTy).Contents (Elt F) → (⟨S16384x1024, .f32⟩ : BufTy).Contents (Elt F)),
    TRef.binary (TRef.of (T := ⟨S16384x4096, .f32⟩) main_arg0) (TRef.of (T := ⟨S16384x4096, .f32⟩) main_arg0) (TRef.of (T := ⟨S16384x4096, .f32⟩) main_call0_v0) mulf,
    TRef.nullary (TRef.of (T := ⟨S_, .f32⟩) main_call0_cst) (constant S_ .f32 0x00000000#32),
    TRef.binary (TRef.of (T := ⟨S16384x4096, .f32⟩) main_call0_v0) (TRef.of (T := ⟨S_, .f32⟩) main_call0_cst) (TRef.of (T := ⟨S16384, .f32⟩) main_call0_v1) (fun x v => Host.reduceAdd x v reducesTo_S16384x4096_S16384_d1 h_S_),
    TRef.unary (TRef.of (T := ⟨S16384, .f32⟩) main_call0_v1) (TRef.of (T := ⟨S16384, .f32⟩) main_v2) Host.sqrt,
    nullary main_cst (constant S_ .f32 0x7F800000#32),
    binary main_v1 main_cst main_v3 ((fun x v => Host.reduce FloatOps.minimumf x v reducesTo_S16384x1024_S_d0_1 h_S_) : (⟨S16384x1024, .f32⟩ : BufTy).Contents (Elt F) → (⟨S_, .f32⟩ : BufTy).Contents (Elt F) → (⟨S_, .f32⟩ : BufTy).Contents (Elt F)),
    unary main_v3 main_v4 (Host.absf : (⟨S_, .f32⟩ : BufTy).Contents (Elt F) → (⟨S_, .f32⟩ : BufTy).Contents (Elt F)),
    nullary main_cst_0 (constant S_ .f32 0xFF800000#32),
    binary main_v1 main_cst_0 main_v5 ((fun x v => Host.reduce FloatOps.maximumf x v reducesTo_S16384x1024_S_d0_1 h_S_) : (⟨S16384x1024, .f32⟩ : BufTy).Contents (Elt F) → (⟨S_, .f32⟩ : BufTy).Contents (Elt F) → (⟨S_, .f32⟩ : BufTy).Contents (Elt F)),
    unary main_v5 main_v6 (Host.absf : (⟨S_, .f32⟩ : BufTy).Contents (Elt F) → (⟨S_, .f32⟩ : BufTy).Contents (Elt F)),
    binary main_v4 main_v6 main_v7 (maximumf : (⟨S_, .f32⟩ : BufTy).Contents (Elt F) → (⟨S_, .f32⟩ : BufTy).Contents (Elt F) → (⟨S_, .f32⟩ : BufTy).Contents (Elt F)),
    nullary main_cst_1 (constant S_ .f32 0x00000000#32),
    binary main_v7 main_cst_1 main_v8 (cmpf .oeq : (⟨S_, .f32⟩ : BufTy).Contents (Elt F) → (⟨S_, .f32⟩ : BufTy).Contents (Elt F) → (⟨S_, .i1⟩ : BufTy).Contents (Elt F)),
    nullary main_cst_2 (constant S_ .f32 0x3F800000#32),
    TRef.ternary (TRef.of (T := ⟨S_, .i1⟩) main_v8) (TRef.of (T := ⟨S_, .f32⟩) main_cst_2) (TRef.of (T := ⟨S_, .f32⟩) main_v7) (TRef.of (T := ⟨S_, .f32⟩) main_v9) select,
    unary main_v9 main_v10 (Host.negf : (⟨S_, .f32⟩ : BufTy).Contents (Elt F) → (⟨S_, .f32⟩ : BufTy).Contents (Elt F)),
    binary main_v9 main_v10 main_v11 (subf : (⟨S_, .f32⟩ : BufTy).Contents (Elt F) → (⟨S_, .f32⟩ : BufTy).Contents (Elt F) → (⟨S_, .f32⟩ : BufTy).Contents (Elt F)),
    nullary main_cst_3 (constant S_ .f32 0x41700000#32),
    binary main_v11 main_cst_3 main_v12 (Host.divf : (⟨S_, .f32⟩ : BufTy).Contents (Elt F) → (⟨S_, .f32⟩ : BufTy).Contents (Elt F) → (⟨S_, .f32⟩ : BufTy).Contents (Elt F)),
    unary main_v10 main_v13 (Host.negf : (⟨S_, .f32⟩ : BufTy).Contents (Elt F) → (⟨S_, .f32⟩ : BufTy).Contents (Elt F)),
    binary main_v13 main_v12 main_v14 (Host.divf : (⟨S_, .f32⟩ : BufTy).Contents (Elt F) → (⟨S_, .f32⟩ : BufTy).Contents (Elt F) → (⟨S_, .f32⟩ : BufTy).Contents (Elt F)),
    TRef.unary (TRef.of (T := ⟨S_, .f32⟩) main_v14) (TRef.of (T := ⟨S_, .f32⟩) main_v15) Host.roundeven,
    unary main_v12 main_v16 (broadcastInDim S16384x1024 ![] bcast_S_S16384x1024 : (⟨S_, .f32⟩ : BufTy).Contents (Elt F) → (⟨S16384x1024, .f32⟩ : BufTy).Contents (Elt F)),
    binary main_v1 main_v16 main_v17 (Host.divf : (⟨S16384x1024, .f32⟩ : BufTy).Contents (Elt F) → (⟨S16384x1024, .f32⟩ : BufTy).Contents (Elt F) → (⟨S16384x1024, .f32⟩ : BufTy).Contents (Elt F)),
    TRef.unary (TRef.of (T := ⟨S16384x1024, .f32⟩) main_v17) (TRef.of (T := ⟨S16384x1024, .f32⟩) main_v18) Host.roundeven,
    unary main_v15 main_v19 (broadcastInDim S16384x1024 ![] bcast_S_S16384x1024 : (⟨S_, .f32⟩ : BufTy).Contents (Elt F) → (⟨S16384x1024, .f32⟩ : BufTy).Contents (Elt F)),
    binary main_v18 main_v19 main_v20 (addf : (⟨S16384x1024, .f32⟩ : BufTy).Contents (Elt F) → (⟨S16384x1024, .f32⟩ : BufTy).Contents (Elt F) → (⟨S16384x1024, .f32⟩ : BufTy).Contents (Elt F)),
    nullary main_cst_4 (constant S_ .f32 0x00000000#32),
    nullary main_cst_5 (constant S_ .f32 0x41700000#32),
    TRef.unary (TRef.of (T := ⟨S_, .f32⟩) main_cst_4) (TRef.of (T := ⟨S_, .f32⟩) main_call4_v0) id,
    TRef.unary (TRef.of (T := ⟨S_, .f32⟩) main_call4_v0) (TRef.of (T := ⟨S16384x1024, .f32⟩) main_call4_v1) (broadcastInDim S16384x1024 ![] bcast_S_S16384x1024),
    TRef.binary (TRef.of (T := ⟨S16384x1024, .f32⟩) main_call4_v1) (TRef.of (T := ⟨S16384x1024, .f32⟩) main_v20) (TRef.of (T := ⟨S16384x1024, .f32⟩) main_call4_v2) maximumf,
    TRef.unary (TRef.of (T := ⟨S_, .f32⟩) main_cst_5) (TRef.of (T := ⟨S_, .f32⟩) main_call4_v3) id,
    TRef.unary (TRef.of (T := ⟨S_, .f32⟩) main_call4_v3) (TRef.of (T := ⟨S16384x1024, .f32⟩) main_call4_v4) (broadcastInDim S16384x1024 ![] bcast_S_S16384x1024),
    TRef.binary (TRef.of (T := ⟨S16384x1024, .f32⟩) main_call4_v4) (TRef.of (T := ⟨S16384x1024, .f32⟩) main_call4_v2) (TRef.of (T := ⟨S16384x1024, .f32⟩) main_v21) minimumf,
    unary main_v15 main_v22 (broadcastInDim S16384x1024 ![] bcast_S_S16384x1024 : (⟨S_, .f32⟩ : BufTy).Contents (Elt F) → (⟨S16384x1024, .f32⟩ : BufTy).Contents (Elt F)),
    binary main_v21 main_v22 main_v23 (subf : (⟨S16384x1024, .f32⟩ : BufTy).Contents (Elt F) → (⟨S16384x1024, .f32⟩ : BufTy).Contents (Elt F) → (⟨S16384x1024, .f32⟩ : BufTy).Contents (Elt F)),
    unary main_v12 main_v24 (broadcastInDim S16384x1024 ![] bcast_S_S16384x1024 : (⟨S_, .f32⟩ : BufTy).Contents (Elt F) → (⟨S16384x1024, .f32⟩ : BufTy).Contents (Elt F)),
    binary main_v24 main_v23 main_v25 (mulf : (⟨S16384x1024, .f32⟩ : BufTy).Contents (Elt F) → (⟨S16384x1024, .f32⟩ : BufTy).Contents (Elt F) → (⟨S16384x1024, .f32⟩ : BufTy).Contents (Elt F)) ]

theorem ops_split : (ops : List (HloOp τ sig (Elt F))) = ops1 ++ (ops2 ++ (ops3 ++ ops4)) := rfl

set_option maxRecDepth 1024 in
/-- The program is the sequence of its operations: the called functions' bodies opened at their call sites and the
    sequencing re-associated. -/
theorem main_eq (c : Dev nD) : main (F := F) c = seq ops := by
  simp only [main, fn_norm.body, fn_where.body, fn_round.body, fn_round_0.body, fn_clip.body, seq, bind_assoc, pure_bind]
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., binary_bufs_sub .., nullary_bufs_sub .., binary_bufs_sub .., unary_bufs_sub .., nullary_bufs_sub .., binary_bufs_sub .., unary_bufs_sub .., nullary_bufs_sub .., binary_bufs_sub .., unary_bufs_sub .., binary_bufs_sub .., nullary_bufs_sub .., binary_bufs_sub .., nullary_bufs_sub .., ternary_bufs_sub .., unary_bufs_sub .., binary_bufs_sub .., nullary_bufs_sub .., binary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., binary_bufs_sub ..⟩

end Cert.ReferenceIdeal.HandRun

end
-- ==== Proof.RefRun.lean ====
/-
  The reference program's run, read in four stages.

  The reference is a straight line of 41 host operations.  Run from any memory, every execution ends with each
  buffer holding what the operations, applied in order to the launch contents, leave there.  The line is cut in
  four: (1) the product of the keys with the transposed sketch, and the row norms; (2) the global minimum and
  maximum of the product and M = max |min| |max|; (3) the scale and the zero point from M; (4) the quantized
  product.  Each stage is read from a contents valuation left arbitrary, so that the scale, which the last stage
  uses many times, is a single name there and never a repeated sub-term.
-/
import proofs.«127435_j61151744360781_2_alg».proof.Proof.Gen.ReferenceIdeal
import proofs.«127435_j61151744360781_2_alg».proof.Proof.RefTerms
import proofs.«127435_j61151744360781_2_alg».proof.Proof.ScalarChain
import proofs.«127435_j61151744360781_2_alg».proof.Proof.RefOps
import proofs.«127435_j61151744360781_2_alg».proof.Proof.RefM
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

section Stages
variable (W : Valuation τ sig (Elt F))

/-! ### Stage 1 -/
theorem s1_proj : after ops1 W (Proc.devRef .tc main_v1) = Terms.proj (W (Proc.devRef .tc main_arg0)) (W (Proc.devRef .tc main_arg1)) := by
  unfold ops1; after_results <;> rfl
theorem s1_norms : after ops1 W (Proc.devRef .tc main_v2) = Terms.norms (W (Proc.devRef .tc main_arg0)) := by
  unfold ops1; after_results <;> rfl
theorem s1_arg0 : after ops1 W (Proc.devRef .tc main_arg0) = W (Proc.devRef .tc main_arg0) := by
  unfold ops1; after_results <;> rfl
theorem s1_arg1 : after ops1 W (Proc.devRef .tc main_arg1) = W (Proc.devRef .tc main_arg1) := by
  unfold ops1; after_results <;> rfl

/-! ### Stage 2 -/
theorem s2_M : after ops2 W (Proc.devRef .tc main_v7) = Cert.Spec.absMax (Terms.gmin (W (Proc.devRef .tc main_v1))) (Terms.gmax (W (Proc.devRef .tc main_v1))) := by
  unfold ops2; after_results <;> rfl
theorem s2_proj : after ops2 W (Proc.devRef .tc main_v1) = W (Proc.devRef .tc main_v1) := by unfold ops2; after_results <;> rfl
theorem s2_norms : after ops2 W (Proc.devRef .tc main_v2) = W (Proc.devRef .tc main_v2) := by unfold ops2; after_results <;> rfl
theorem s2_arg0 : after ops2 W (Proc.devRef .tc main_arg0) = W (Proc.devRef .tc main_arg0) := by unfold ops2; after_results <;> rfl
theorem s2_arg1 : after ops2 W (Proc.devRef .tc main_arg1) = W (Proc.devRef .tc main_arg1) := by unfold ops2; after_results <;> rfl

/-! ### Stage 3 -/
theorem s3_scale : after ops3 W (Proc.devRef .tc main_v12) = Cert.Spec.scaleM (W (Proc.devRef .tc main_v7)) := by
  unfold ops3; after_results <;> rfl
theorem s3_zero : after ops3 W (Proc.devRef .tc main_v15) = Cert.Spec.zeroM (W (Proc.devRef .tc main_v7)) := by
  unfold ops3; after_results <;> rfl
theorem s3_proj : after ops3 W (Proc.devRef .tc main_v1) = W (Proc.devRef .tc main_v1) := by unfold ops3; after_results <;> rfl
theorem s3_norms : after ops3 W (Proc.devRef .tc main_v2) = W (Proc.devRef .tc main_v2) := by unfold ops3; after_results <;> rfl
theorem s3_arg0 : after ops3 W (Proc.devRef .tc main_arg0) = W (Proc.devRef .tc main_arg0) := by unfold ops3; after_results <;> rfl
theorem s3_arg1 : after ops3 W (Proc.devRef .tc main_arg1) = W (Proc.devRef .tc main_arg1) := by unfold ops3; after_results <;> rfl

/-! ### Stage 4 -/
theorem s4_quant : after ops4 W (Proc.devRef .tc main_v25) = Terms.quant (W (Proc.devRef .tc main_v1)) (W (Proc.devRef .tc main_v12)) (W (Proc.devRef .tc main_v15)) := by
  unfold ops4; after_results <;> rfl
theorem s4_norms : after ops4 W (Proc.devRef .tc main_v2) = W (Proc.devRef .tc main_v2) := by unfold ops4; after_results <;> rfl
theorem s4_scale : after ops4 W (Proc.devRef .tc main_v12) = W (Proc.devRef .tc main_v12) := by unfold ops4; after_results <;> rfl
theorem s4_zero : after ops4 W (Proc.devRef .tc main_v15) = W (Proc.devRef .tc main_v15) := by unfold ops4; after_results <;> rfl
theorem s4_arg0 : after ops4 W (Proc.devRef .tc main_arg0) = W (Proc.devRef .tc main_arg0) := by unfold ops4; after_results <;> rfl
theorem s4_arg1 : after ops4 W (Proc.devRef .tc main_arg1) = W (Proc.devRef .tc main_arg1) := by unfold ops4; after_results <;> rfl

end Stages

/-- The whole line read at the four results and the two arguments. -/
theorem after_ops (W : Valuation τ sig (Elt F)) :
    after ops W (Proc.devRef .tc main_v25) = Terms.quant (Terms.proj (W (Proc.devRef .tc main_arg0)) (W (Proc.devRef .tc main_arg1)))
        (Cert.Spec.scaleM (Terms.refM (W (Proc.devRef .tc main_arg0)) (W (Proc.devRef .tc main_arg1)))) (Cert.Spec.zeroM (Terms.refM (W (Proc.devRef .tc main_arg0)) (W (Proc.devRef .tc main_arg1))))
    ∧ after ops W (Proc.devRef .tc main_v2) = Terms.norms (W (Proc.devRef .tc main_arg0))
    ∧ after ops W (Proc.devRef .tc main_v12) = Cert.Spec.scaleM (Terms.refM (W (Proc.devRef .tc main_arg0)) (W (Proc.devRef .tc main_arg1)))
    ∧ after ops W (Proc.devRef .tc main_v15) = Cert.Spec.zeroM (Terms.refM (W (Proc.devRef .tc main_arg0)) (W (Proc.devRef .tc main_arg1)))
    ∧ after ops W (Proc.devRef .tc main_arg0) = W (Proc.devRef .tc main_arg0)
    ∧ after ops W (Proc.devRef .tc main_arg1) = W (Proc.devRef .tc main_arg1) := by
  rw [ops_split, after_append, after_append, after_append]
  unfold Terms.refM
  refine ⟨?_, ?_, ?_, ?_, ?_, ?_⟩
  · rw [s4_quant, s3_proj, s2_proj, s1_proj, s3_scale, s3_zero, s2_M, s1_proj]
  · rw [s4_norms, s3_norms, s2_norms, s1_norms]
  · rw [s4_scale, s3_scale, s2_M, s1_proj]
  · rw [s4_zero, s3_zero, s2_M, s1_proj]
  · rw [s4_arg0, s3_arg0, s2_arg0, s1_arg0]
  · rw [s4_arg1, s3_arg1, s2_arg1, s1_arg1]

/-- From any memory with zero counters every weakly fair execution of the reference terminates, its four results
    at the stages' terms of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = Terms.quant (Terms.proj (m ((c.tc : Thread nD τ).loc main_arg0)) (m ((c.tc : Thread nD τ).loc main_arg1)))
          (Cert.Spec.scaleM (Terms.refM (m ((c.tc : Thread nD τ).loc main_arg0)) (m ((c.tc : Thread nD τ).loc main_arg1))))
          (Cert.Spec.zeroM (Terms.refM (m ((c.tc : Thread nD τ).loc main_arg0)) (m ((c.tc : Thread nD τ).loc main_arg1))))
      ∧ r.2.mem ((c.tc : Thread nD τ).loc main_v2) = Terms.norms (m ((c.tc : Thread nD τ).loc main_arg0))
      ∧ r.2.mem ((c.tc : Thread nD τ).loc main_v12) = Cert.Spec.scaleM (Terms.refM (m ((c.tc : Thread nD τ).loc main_arg0)) (m ((c.tc : Thread nD τ).loc main_arg1)))
      ∧ r.2.mem ((c.tc : Thread nD τ).loc main_v15) = Cert.Spec.zeroM (Terms.refM (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨e0, e1, e2, e3, e4, e5⟩ := after_ops (F := F) (launchContents m c)
      exact ⟨(h c main_v25).trans e0, (h c main_v2).trans e1, (h c main_v12).trans e2, (h c main_v15).trans e3,
        (h c main_arg0).trans e4, (h c main_arg1).trans e5⟩)
    (run_seq scopedRefs_eq scopedSems_eq defs main (fun _ => ops) main_eq (fun _ => ops_sub) m ρ)

end Cert.ReferenceIdeal.HandRun

end
-- ==== Proof.lean ====
/-
  A random-projection quantizer: the keys (16384 x 4096) are multiplied by the transposed sketch (1024 x 4096); the
  product's global minimum and maximum give M = max |min| |max| (1 if that is 0), scale = (M - (-M)) / 15 and
  zero = roundeven (-(-M) / scale); every entry v of the product becomes scale * (min 15 (max 0 (roundeven (v / scale)
  + zero)) - zero).  The results are the quantized product, the keys' row norms, the scale and the zero point.

  The kernel computes the product in 64 row blocks on the matrix unit (the sketch narrowed to bf16 first, which is the
  identity on the extended reals), stores each block's norms, and stores each block's own minimum and maximum; the
  host then takes the minimum of the 64 block minima and the maximum of the 64 block maxima, derives the scale and the
  zero point exactly as the reference does, and a second kernel quantizes the product in 16 row blocks.  The
  reference does the same with one matrix product and one global minimum and maximum.

  On the extended reals the two agree: a matrix product is the same sum of products however it is tiled; the minimum
  of block minima that cover an array is the array's minimum, and dually for maxima — a fact of the order alone, so no
  finiteness of the inputs is used; and from equal minimum and maximum on, both programs apply the same operations
  with the same constants.  The three frames are the generated ones (the reference's is its run with the results
  dropped); the idealization rewrote nothing, so the preservation claim is trivial.
-/
import proofs.«127435_j61151744360781_2_alg».proof.Defs
import proofs.«127435_j61151744360781_2_alg».proof.Proof.Gen.Kernel
import proofs.«127435_j61151744360781_2_alg».proof.Proof.Gen.Kernel.Frame
import proofs.«127435_j61151744360781_2_alg».proof.Proof.Gen.KernelIdeal
import proofs.«127435_j61151744360781_2_alg».proof.Proof.Gen.KernelIdeal.Frame
import proofs.«127435_j61151744360781_2_alg».proof.Proof.Gen.ReferenceIdeal
import proofs.«127435_j61151744360781_2_alg».proof.Proof.Gen.Pre_finite_inputs
import proofs.«127435_j61151744360781_2_alg».proof.Proof.KernelValue
import proofs.«127435_j61151744360781_2_alg».proof.Proof.RefRun
import Idealize.ShloMosaic.Adequacy
import Idealize.ShloMosaic.Init

noncomputable section

namespace Cert.Proof

open Idealize.ShloMosaic Idealize.SL.Sem

/-- The kernel as printed runs to the end without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the four results dropped. -/
theorem frame_referenceIdeal : Cert.frame_ReferenceIdeal := fun m ρ _ =>
  (θ_run Cert.ReferenceIdeal.defs _ _).mono (fun _ h c => ⟨(h c).2.2.2.2.1, (h c).2.2.2.2.2⟩)
    (Cert.ReferenceIdeal.HandRun.run (F := Ideal) m ρ)

/-- The idealization rewrote no operation. -/
theorem preserves : Cert.preserves_Kernel_KernelIdeal := trivial

/-- From memories that agree on the two arguments both idealized programs run to the end, and the four results are
    equal: each is the same term of the arguments (the kernel's run is stated with the reference's terms). -/
theorem algebraic : Cert.algebraic_KernelIdeal_ReferenceIdeal := by
  intro m ρ m' ρ' _ hagree
  refine ⟨_, _, _, _, Cert.KernelIdeal.Value.run m ρ, ?_⟩
  refine (θ_run Cert.ReferenceIdeal.defs _ _).mono (fun _ h c => ?_) (Cert.ReferenceIdeal.HandRun.run (F := Ideal) m' ρ')
  obtain ⟨h0, h1, h2, h3, h4, h5⟩ := h c
  rw [(hagree c).1, (hagree c).2] at h0 h2 h3
  rw [(hagree c).1] at h1
  exact ⟨h0, h1, h2, h3, h4, h5⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
